-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x512 : Shape := ⟨2, ![4096, 512]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x1024 .f32) (main_arg1 : FVec F S4096x512 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x1024 : Shape := ⟨2, ![4096, 1024]⟩
abbrev S4096x512 : Shape := ⟨2, ![4096, 512]⟩
abbrev S1x1 : Shape := ⟨2, ![1, 1]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S1x512 : Shape := ⟨2, ![1, 512]⟩
abbrev S1 : Shape := ⟨1, ![1]⟩
abbrev S_ : Shape := ⟨0, ![]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S1x1, .f32⟩
  | .hbm, ⟨3, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  inb_S1x1_S1x1_0_0 : ∀ a, (![0, 0] : Fin 2 → Nat) a + S1x1.size a ≤ S1x1.size a
  h_S1x1 : 0 < S1x1.numel
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  bitsLt_bf16_f32 : FTy.bits .bf16 < FTy.bits .f32
  transposes_S512x1024_p1_0_S1024x512 : S512x1024.Transposes [1, 0] S1024x512
  transposes_S512x1_p1_0_S1x512 : S512x1.Transposes [1, 0] S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  reduces_S512x512_S512 : S512x512.Reduces [1] S512
  transposes_S512x512_p1_0_S512x512 : S512x512.Transposes [1, 0] S512x512
  iota_S512x512_d0_w32 : S512x512.Iotas .tc 32 [0]
  iota_S512x512_d1_w32 : S512x512.Iotas .tc 32 [1]
  natLt_1_32 : 1 < 32
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  dot_S512x1024_S1024x512_S512x512_1_0_0_1_n_n_wf : DotDims.WF S512x1024 S1024x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .f32 = 32 ∨ (Rect.block (s := S4096x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1024x4096 : Shape := ⟨2, ![1024, 4096]⟩
abbrev S512x4096 : Shape := ⟨2, ![512, 4096]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1024x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x512, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S512x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .i1⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .i32⟩
  | .hbm, ⟨53, _⟩ => ⟨S4096x4096, .i32⟩
  | .hbm, ⟨54, _⟩ => ⟨S_, .i32⟩
  | .hbm, ⟨55, _⟩ => ⟨S4096x4096, .i32⟩
  | .hbm, ⟨56, _⟩ => ⟨S4096x4096, .i32⟩
  | .hbm, ⟨57, _⟩ => ⟨S4096x4096, .i1⟩
  | .hbm, ⟨58, _⟩ => ⟨S4096x4096, .f32⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .i1⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S_, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x1024_S1024x4096_1_0 : S4096x1024.Transposes [1, 0] S1024x4096
  bcast_S_S4096x4096 : S_.BroadcastsInDim S4096x4096 (![] : Fin 0 → Fin S4096x4096.rank)
  reducesTo_S4096x512_S4096_d1 : S4096x512.ReducesTo [1] S4096
  transposes_S4096x512_S512x4096_1_0 : S4096x512.Transposes [1, 0] S512x4096
  reducesTo_S4096x4096_S_d0_1 : S4096x4096.ReducesTo [0, 1] S_
  dot_S4096x1024_S1024x4096_S4096x4096_1_0_0_1_n_n_wf : DotDims.WF S4096x1024 S1024x4096 S4096x4096 [1] [0] [0] [1] [] []
  dot_S4096x512_S512x4096_S4096x4096_1_0_0_1_n_n_wf : DotDims.WF S4096x512 S512x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.KBBody.lean ====
import proofs.«156422_j38439957299681_1_alg».proof.Proof.Gen.Kernel.Launch
import proofs.«156422_j38439957299681_1_alg».proof.Proof.Gen.Kernel.Skeleton
import proofs.«156422_j38439957299681_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point of the kernel

At grid point (i, j) the body reads the row blocks i and j of x and of y, forms the tile's partial loss, and adds
it to the 1×1 accumulator, which it first clears when (i, j) = (0, 0). -/

/-- The clearing branch's condition: i = 0 and j = 0, as the body's integer chain spells it. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond0 : ∀ t : Fin cfg0.N, cond0 (grid0.coords t) ↔ t.val = 0 :=
  (by decide +kernel : ∀ t : Fin grid0.N, cond0 (grid0.coords t) ↔ t.val = 0)

/-- The tile's partial loss from the four blocks the point reads. -/
def tileOf (i : grid0.Coords) (x0 x1 : Vec F S512x1024 .f32) (x2 x3 : Vec F S512x512 .f32) : FVec F S1x1 .f32 :=
  k0_pay6 (BitVec.ofNat 32 (i 0).val) (BitVec.ofNat 32 (i 1).val) (k0_pay3 x0 x1) x2 x3 (k0_pay4 x2) (k0_pay5 x3)

theorem hz11 : (![0, 0] : Fin S1x1.rank → Nat) = fun _ => 0 := by
  funext a; match a with | ⟨0, _⟩ => rfl | ⟨1, _⟩ => rfl
theorem hzX : (![0, 0] : Fin S512x1024.rank → Nat) = fun _ => 0 := by
  funext a; match a with | ⟨0, _⟩ => rfl | ⟨1, _⟩ => rfl
theorem hzY : (![0, 0] : Fin S512x512.rank → Nat) = fun _ => 0 := by
  funext a; match a with | ⟨0, _⟩ => rfl | ⟨1, _⟩ => rfl

/-- A load through the whole-block rectangle reads the block. -/
theorem ldX (x : Vec F S512x1024 .f32) : View.ld x (Rect.unit (s := S512x1024) ![0, 0] S512x1024.size inb_S512x1024_S512x1024_0_0) = x :=
  View.ld_unit_zero hzX _ x
theorem ldY (x : Vec F S512x512 .f32) : View.ld x (Rect.unit (s := S512x512) ![0, 0] S512x512.size inb_S512x512_S512x512_0_0) = x :=
  View.ld_unit_zero hzY _ x
theorem ldO (x : Vec F S1x1 .f32) : View.ld x (Rect.unit (s := S1x1) ![0, 0] S1x1.size inb_S1x1_S1x1_0_0) = x :=
  View.ld_unit_zero hz11 _ x

set_option maxHeartbeats 1000000 in
/-- A later grid point: the accumulator, found at xo, is left at xo plus the tile's partial loss; the input blocks
    are left as found. -/
theorem run_later (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S1x1 .f32) (harg6 : arg6.IsWhole) (hc0 : ¬cond0 i)
    (x0 x1 : Vec F S512x1024 .f32) (x2 x3 : Vec F S512x512 .f32) (xo : Vec F S1x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 (tileOf i x0 x1 x2 x3) xo)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_eq_canon _ _ _ (fun y => ⟨_, List.mem_singleton_self _, View.mem_set_unit_zero hz11 inb_S1x1_S1x1_0_0 y⟩)]
  rw [View.canon_unit_zero hz11]
  sl_unfold_words
  simp only [View.readAt_eq_ld, harg2.read_unread, harg3.read_unread, harg4.read_unread, harg5.read_unread, harg6.read_unread]
  rw [ldX, ldX, ldY, ldY, ldO]
  rfl

set_option maxHeartbeats 1000000 in
/-- The first grid point: the accumulator, found at anything, is cleared and left at zero plus the tile's partial
    loss; the input blocks are left as found. -/
theorem run_first (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S1x1 .f32) (harg6 : arg6.IsWhole) (hc0 : cond0 i)
    (x0 x1 : Vec F S512x1024 .f32) (x2 x3 : Vec F S512x512 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 (tileOf i x0 x1 x2 x3) (k0_pay2 (F := F)))) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_eq_canon _ _ _ (fun y => ⟨_, List.mem_cons_self, View.mem_set_unit_zero hz11 inb_S1x1_S1x1_0_0 y⟩)]
  rw [View.canon_cons_unit_zero hz11]
  sl_unfold_words
  simp only [View.readAt_eq_ld, harg2.read_unread, harg3.read_unread, harg4.read_unread, harg5.read_unread]
  rw [ldX, ldX, ldY, ldY, View.readCov_unit_zero _ hz11]
  rfl

end Cert.Kernel.Frm

end
-- ==== Proof.KBData.lean ====
import proofs.«156422_j38439957299681_1_alg».proof.Proof.Gen.Kernel.Launch
import proofs.«156422_j38439957299681_1_alg».proof.Proof.Gen.Kernel.Skeleton
import proofs.«156422_j38439957299681_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«156422_j38439957299681_1_alg».proof.Proof.KBBody
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core c's buffers when the region is entered: as launched (the region is @main's first line). -/
abbrev V (c : Dev nD) (b : Ref sig .tc) : Buf (Elt F) ((c : Thread nD τ).loc b) := m ((c : Thread nD τ).loc b)

/-- Window w's block at grid point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    window's block index has not moved), for any proof data whose array is V's and whose body leaves the block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point t, as the pipeline passes it, and its wholeness. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-! ## The accumulator, point by point -/

/-- The partial loss of the tile at grid point t. -/
def tileAt (c : Dev nD) (t : Fin cfg0.N) : FVec F S1x1 .f32 :=
  tileOf (grid0.coords t) (iblk m c 0 t) (iblk m c 1 t) (iblk m c 2 t) (iblk m c 3 t)

/-- What the accumulator's staging buffer holds after the body at position n: cleared and given the first tile's
    partial loss at position 0, the next tile's added at every later position. -/
def accAt (c : Dev nD) : (n : ℕ) → n < cfg0.N → Vec F S1x1 .f32
  | 0, hn => k0_pay1 (tileAt m c ⟨0, hn⟩) (k0_pay2 (F := F))
  | n + 1, hn => k0_pay1 (tileAt m c ⟨n + 1, hn⟩) (accAt c n (Nat.lt_of_succ_lt hn))

theorem accAt_first (c : Dev nD) (t : Fin cfg0.N) (h0 : t.val = 0) :
    accAt m c t.val t.isLt = k0_pay1 (tileAt m c t) (k0_pay2 (F := F)) := by
  obtain ⟨n, hn⟩ := t
  cases n with
  | zero => rfl
  | succ n => exact absurd h0 (Nat.succ_ne_zero n)

theorem accAt_later (c : Dev nD) (t : Fin cfg0.N) (h0 : ¬t.val = 0) :
    accAt m c t.val t.isLt = k0_pay1 (tileAt m c t) (accAt m c (t.val - 1) (Nat.lt_of_le_of_lt (Nat.sub_le _ _) t.isLt)) := by
  obtain ⟨n, hn⟩ := t
  cases n with
  | zero => exact absurd rfl h0
  | succ n => rfl

/-! ## The pipeline's proof data -/

/-- The two input windows on one array hold complementary halves of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- At the first point the accumulator's staging buffer is fresh. -/
theorem before4_first (c : Dev nD) (t : Fin cfg0.N) (h0 : t.val = 0) (d) : (dats m 0 c).before 4 t d = d :=
  Dat.before_out_reset _ 4 rfl t (.inl h0) d

/-- At a later point it holds what the body left at the point before: it is written back only after the last point. -/
theorem before4_later (c : Dev nD) (t : Fin cfg0.N) (h0 : ¬t.val = 0) (d) :
    (dats m 0 c).before 4 t d = accAt m c (t.val - 1) (Nat.lt_of_le_of_lt (Nat.sub_le _ _) t.isLt) := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any grid point: the input buffers hold their blocks; at the first point the accumulator is cleared,
    at a later one it holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h0 : t.val = 0
  · rw [accAt_first m c t h0]
    simp only [before4_first m c t h0]
    iintro ⟨HΦ, Ho, ⟨%d0, H0⟩, ⟨%d1, H1⟩, ⟨%d2, H2⟩, ⟨%d3, H3⟩, H4⟩
    iapply (run_first c (grid0.coords t) _ _ _ _ _ _ _ _ _ _ ((hcond0 t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt_later m c t h0]
    simp only [before4_later m c t h0]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun h => h0 ((hcond0 t).mp h)) (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frm

end
-- ==== Proof.KBRun.lean ====
import proofs.«156422_j38439957299681_1_alg».proof.Proof.Gen.Kernel.Launch
import proofs.«156422_j38439957299681_1_alg».proof.Proof.Gen.Kernel.Skeleton
import proofs.«156422_j38439957299681_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«156422_j38439957299681_1_alg».proof.Proof.KBData
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch

The region is @main's first line; one host line follows it, recasting the 1×1 result as a scalar.  The two input
windows on x hold complementary halves of x's buffer, and likewise on y. -/

/-- The buffers after the region: the accumulator's array at what the last write-back left, every other buffer as
    launched. -/
def Wexit (c : Dev nD) : Valuation τ sig (Elt F) :=
  open Classical in Function.update (fun b => m (c, b)) (Proc.devRef .tc main_v0) ((dats m 0 c).arrAt 4 cfg0.N)

/-- The scalar result: the host line's reading of those buffers. -/
def resOf (c : Dev nD) : Buf (Elt F) ((c : Thread nD τ).loc main_v1) :=
  StableHlo.after (hostOps1 (F := F)) (Wexit m c) (Proc.devRef .tc main_v1)

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have himg : Finset.univ.image (Pipeline.arrRef spec0) = ([main_arg0, main_arg1, main_v0] : List (Ref sig .tc)).toFinset := by decide
  have e : ∀ w : Fin 5, ((cfg0.win w).arr.view.loc (c.tc : Thread nD τ) ↦[(cfg0.win w).arr.view.set]{(dats m 0 c).share w} (dats m 0 c).arrAt w 0 : sProp 𝕄)
      = ((c.tc : Thread nD τ).loc (Pipeline.arrRef spec0 w) ↦{(dats m 0 c).share w} V m c (Pipeline.arrRef spec0 w)) := fun w => by
    rw [(arr_whole0 w).set_eq_univ]; rfl
  unfold Pipeline.arrBufs Dat.arrays
  rw [bigSep_eq_bigSepL_of_eq _ himg (by decide), bigSep_congr (fun w _ => e w), bigSep_W0]
  show iprop((((c.tc : Thread nD τ).loc main_arg0) ↦{fullShare} V m c main_arg0) ∗ (((c.tc : Thread nD τ).loc main_arg1) ↦{fullShare} V m c main_arg1)
        ∗ (((c.tc : Thread nD τ).loc main_v0) ↦{fullShare} V m c main_v0))
    ⊢ iprop((((c.tc : Thread nD τ).loc main_arg0) ↦{fullShare.left} V m c main_arg0) ∗ (((c.tc : Thread nD τ).loc main_arg0) ↦{fullShare.right} V m c main_arg0)
        ∗ (((c.tc : Thread nD τ).loc main_arg1) ↦{fullShare.left} V m c main_arg1) ∗ (((c.tc : Thread nD τ).loc main_arg1) ↦{fullShare.right} V m c main_arg1)
        ∗ (((c.tc : Thread nD τ).loc main_v0) ↦{fullShare} V m c main_v0))
  iintro ⟨H0, H1, H2⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  iexact H2

theorem htail (c : Dev nD) (Q' : PUnit → sProp 𝕄) :
    iprop((iprop((dats m 0 c).arrays ((dats m 0 c).arrAt · cfg0.N)
            ∗ (((c : Thread nD τ).loc main_v1) ↦{fullShare} resOf m c)) -∗ Q' ⟨⟩)
        ∗ boundary (c.tc : Thread nD τ) ∗ (dats m 0 c).arrays ((dats m 0 c).arrAt · cfg0.N)
        ∗ (((c : Thread nD τ).loc main_v1) ↦{fullShare} V m c main_v1))
      ⊢ wp frame (wpE (defs (F := F)) (Variants.lift Variants.none) (c.tc : Thread nD τ) none) Set.univ
          (Pipeline.chain [StableHlo.seq (hostOps1 (F := F))]) Q' := by
  classical
  have hS : ∀ ops ∈ [hostOps1 (F := F)], ∀ op ∈ ops, op.bufs ⊆ ({Proc.devRef .tc main_v0, Proc.devRef .tc main_v1} : Finset (DevRef τ sig)) := by
    intro ops hops op hop
    rw [List.mem_singleton] at hops; subst hops
    rw [hostOps1, List.mem_singleton] at hop; subst hop
    exact subset_refl _
  have hf : ∀ ops ∈ [hostOps1 (F := F)], ∀ op ∈ ops, op.fresh = ∅ := by
    intro ops hops op hop
    rw [List.mem_singleton] at hops; subst hops
    rw [hostOps1, List.mem_singleton] at hop; subst hop
    rfl
  have hne : (Proc.devRef (τ := τ) .tc main_v0 : DevRef τ sig) ∉ ({Proc.devRef .tc main_v1} : Finset (DevRef τ sig)) := by decide
  have hheld : ∀ W : Valuation τ sig (Elt F),
      (StableHlo.held (c.tc : Thread nD τ) ({Proc.devRef .tc main_v0, Proc.devRef .tc main_v1} : Finset (DevRef τ sig)) W : sProp 𝕄)
        = iprop((((c : Thread nD τ).loc main_v0) ↦{fullShare} W (Proc.devRef .tc main_v0)) ∗ (((c : Thread nD τ).loc main_v1) ↦{fullShare} W (Proc.devRef .tc main_v1))) := fun W => by
    unfold StableHlo.held
    rw [bigSep_insert hne, BI.bigSep_singleton]; rfl
  have hW0 : Wexit m c (Proc.devRef .tc main_v0) = (dats m 0 c).arrAt 4 cfg0.N := by
    unfold Wexit; exact Function.update_self _ _ _
  have hW1 : Wexit m c (Proc.devRef .tc main_v1) = V m c main_v1 := by
    unfold Wexit; exact Function.update_of_ne (by decide) _ _
  have hA0 : StableHlo.after (hostOps1 (F := F)) (Wexit m c) (Proc.devRef .tc main_v0) = (dats m 0 c).arrAt 4 cfg0.N := by
    rw [StableHlo.after_of_forall_not_mem _ _ (fun op hop => by
      rw [hostOps1, List.mem_singleton] at hop; subst hop; exact hne), hW0]
  have e4 : ((cfg0.win 4).arr.view.loc (c.tc : Thread nD τ) ↦[(cfg0.win 4).arr.view.set]{(dats m 0 c).share 4} (dats m 0 c).arrAt 4 cfg0.N : sProp 𝕄)
      = (((c : Thread nD τ).loc main_v0) ↦{fullShare} (dats m 0 c).arrAt 4 cfg0.N) := by
    rw [(arr_whole0 4).set_eq_univ]; rfl
  unfold Dat.arrays
  rw [bigSep_W0, e4, show Pipeline.chain [StableHlo.seq (hostOps1 (F := F))]
      = (Pipeline.chain ([hostOps1 (F := F)].map StableHlo.seq ++ []) : Prog (TpuEff nD τ sig (Elt F) (Pipeline.Sig Λ₀ (Fin 1) fun p => (pcfgs (F := F) p).Adm) .tc) PUnit) from rfl]
  iintro ⟨Hk, Hb, ⟨A0, A1, A2, A3, A4⟩, Hv1⟩
  iapply (Pipeline.wp_seqs_then pcfgs defs₀ Variants.none c ({Proc.devRef .tc main_v0, Proc.devRef .tc main_v1} : Finset (DevRef τ sig)) [] [hostOps1 (F := F)] hS hf (Wexit m c)) $$ [Hb A4 Hv1]
  · rw [hheld, hW0, hW1]
    isplitl [Hb]; · iexact Hb
    isplitl [A4]; · iexact A4
    iexact Hv1
  iintro Hb
  rw [Pipeline.chain_nil, wp_pure, hheld, List.flatten_singleton, hA0]
  imodintro
  iapply Hk
  icases Hb with ⟨-, A4, Hv1⟩
  isplitr [Hv1]
  · isplitl [A0]; · iexact A0
    isplitl [A1]; · iexact A1
    isplitl [A2]; · iexact A2
    isplitl [A3]; · iexact A3
    iexact A4
  iexact Hv1

set_option backward.isDefEq.respectTransparency.types false in
/-- From any memory with zero counters: every weakly fair execution of @main terminates without a fault, the
    scalar result at the host line's reading of the accumulated loss, the two argument arrays unchanged. -/
theorem run_main : θ_run defs (onTc (τ := τ) (main (F := F))) ⟨m, fun _ => 0, ρ⟩ (fun r => ∀ c : Dev nD,
      r.2.mem ((c.tc : Thread nD τ).loc main_v1) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail pcfgs (fun p => (cfgs p).toPCfg_adm) (dats m) () cellOf_inj (0 : Fin 1) winFacts₀0
    (Pipeline.OwnSemFacts.none spec0) (Pipeline.PreFacts.none _) emb₁ defs₀ Variants.none m ρ main
    (fun _ => Pipeline.chain [StableHlo.seq (hostOps1 (F := F))])
    (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m)
    (hmain := fun c Q => by
      rw [main_chain c]
      iintro ⟨Hk, Hb⟩; iapply Hk; iexact Hb)
    (hsplit := hsplit m)
    (hpf := fun _ k => k.elim0)
    (X := fun c => iprop(∃ r, prngReg c r)) (Y := fun c => iprop(∃ r, prngReg c r))
    (Z := fun c => iprop(((c : Thread nD τ).loc main_v1) ↦{fullShare} V m c main_v1))
    (Z' := fun c => iprop(((c : Thread nD τ).loc main_v1) ↦{fullShare} resOf m c))
    (hX := fun c => by
      rw [Pipeline.unscopedRestP_none, unscopedRest0_eq]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => s.mem ((c.tc : Thread nD τ).loc main_v1) = resOf m c)
    (hY := fun c s' => by
      iintro ⟨-, H0, HSI⟩
      icombine HSI H0 gives %h0
      imodintro
      isplitr; · ipureintro; exact Buf.eq_of_forall_mem_univ h0
      iexact HSI)
    (hQ := fun s h c => ⟨(h c).2.2,
      ((h c).1 0).trans ((dats m 0 c).arrAt_in 0 rfl _),
      ((h c).1 2).trans ((dats m 0 c).arrAt_in 2 rfl _)⟩)

end Cert.Kernel.Frm

end
-- ==== Proof.KIBody.lean ====
import proofs.«156422_j38439957299681_1_alg».proof.Proof.Gen.KernelIdeal.Launch
import proofs.«156422_j38439957299681_1_alg».proof.Proof.Gen.KernelIdeal.Skeleton
import proofs.«156422_j38439957299681_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point of the kernel

At grid point (i, j) the body reads the row blocks i and j of x and of y, forms the tile's partial loss, and adds
it to the 1×1 accumulator, which it first clears when (i, j) = (0, 0). -/

/-- The clearing branch's condition: i = 0 and j = 0, as the body's integer chain spells it. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem hcond0 : ∀ t : Fin cfg0.N, cond0 (grid0.coords t) ↔ t.val = 0 :=
  (by decide +kernel : ∀ t : Fin grid0.N, cond0 (grid0.coords t) ↔ t.val = 0)

/-- The tile's partial loss from the four blocks the point reads. -/
def tileOf (i : grid0.Coords) (x0 x1 : Vec F S512x1024 .f32) (x2 x3 : Vec F S512x512 .f32) : FVec F S1x1 .f32 :=
  k0_pay6 (BitVec.ofNat 32 (i 0).val) (BitVec.ofNat 32 (i 1).val) (k0_pay3 x0 x1) x2 x3 (k0_pay4 x2) (k0_pay5 x3)

theorem hz11 : (![0, 0] : Fin S1x1.rank → Nat) = fun _ => 0 := by
  funext a; match a with | ⟨0, _⟩ => rfl | ⟨1, _⟩ => rfl
theorem hzX : (![0, 0] : Fin S512x1024.rank → Nat) = fun _ => 0 := by
  funext a; match a with | ⟨0, _⟩ => rfl | ⟨1, _⟩ => rfl
theorem hzY : (![0, 0] : Fin S512x512.rank → Nat) = fun _ => 0 := by
  funext a; match a with | ⟨0, _⟩ => rfl | ⟨1, _⟩ => rfl

/-- A load through the whole-block rectangle reads the block. -/
theorem ldX (x : Vec F S512x1024 .f32) : View.ld x (Rect.unit (s := S512x1024) ![0, 0] S512x1024.size inb_S512x1024_S512x1024_0_0) = x :=
  View.ld_unit_zero hzX _ x
theorem ldY (x : Vec F S512x512 .f32) : View.ld x (Rect.unit (s := S512x512) ![0, 0] S512x512.size inb_S512x512_S512x512_0_0) = x :=
  View.ld_unit_zero hzY _ x
theorem ldO (x : Vec F S1x1 .f32) : View.ld x (Rect.unit (s := S1x1) ![0, 0] S1x1.size inb_S1x1_S1x1_0_0) = x :=
  View.ld_unit_zero hz11 _ x

set_option maxHeartbeats 1000000 in
/-- A later grid point: the accumulator, found at xo, is left at xo plus the tile's partial loss; the input blocks
    are left as found. -/
theorem run_later (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S1x1 .f32) (harg6 : arg6.IsWhole) (hc0 : ¬cond0 i)
    (x0 x1 : Vec F S512x1024 .f32) (x2 x3 : Vec F S512x512 .f32) (xo : Vec F S1x1 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 (tileOf i x0 x1 x2 x3) xo)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_eq_canon _ _ _ (fun y => ⟨_, List.mem_singleton_self _, View.mem_set_unit_zero hz11 inb_S1x1_S1x1_0_0 y⟩)]
  rw [View.canon_unit_zero hz11]
  sl_unfold_words
  simp only [View.readAt_eq_ld, harg2.read_unread, harg3.read_unread, harg4.read_unread, harg5.read_unread, harg6.read_unread]
  rw [ldX, ldX, ldY, ldY, ldO]
  rfl

set_option maxHeartbeats 1000000 in
/-- The first grid point: the accumulator, found at anything, is cleared and left at zero plus the tile's partial
    loss; the input blocks are left as found. -/
theorem run_first (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S1x1 .f32) (harg6 : arg6.IsWhole) (hc0 : cond0 i)
    (x0 x1 : Vec F S512x1024 .f32) (x2 x3 : Vec F S512x512 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 (tileOf i x0 x1 x2 x3) (k0_pay2 (F := F)))) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [View.read_writes_eq_canon _ _ _ (fun y => ⟨_, List.mem_cons_self, View.mem_set_unit_zero hz11 inb_S1x1_S1x1_0_0 y⟩)]
  rw [View.canon_cons_unit_zero hz11]
  sl_unfold_words
  simp only [View.readAt_eq_ld, harg2.read_unread, harg3.read_unread, harg4.read_unread, harg5.read_unread]
  rw [ldX, ldX, ldY, ldY, View.readCov_unit_zero _ hz11]
  rfl

end Cert.KernelIdeal.Frm

end
-- ==== Proof.KIData.lean ====
import proofs.«156422_j38439957299681_1_alg».proof.Proof.Gen.KernelIdeal.Launch
import proofs.«156422_j38439957299681_1_alg».proof.Proof.Gen.KernelIdeal.Skeleton
import proofs.«156422_j38439957299681_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«156422_j38439957299681_1_alg».proof.Proof.KIBody
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core c's buffers when the region is entered: as launched (the region is @main's first line). -/
abbrev V (c : Dev nD) (b : Ref sig .tc) : Buf (Elt F) ((c : Thread nD τ).loc b) := m ((c : Thread nD τ).loc b)

/-- Window w's block at grid point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    window's block index has not moved), for any proof data whose array is V's and whose body leaves the block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point t, as the pipeline passes it, and its wholeness. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-! ## The accumulator, point by point -/

/-- The partial loss of the tile at grid point t. -/
def tileAt (c : Dev nD) (t : Fin cfg0.N) : FVec F S1x1 .f32 :=
  tileOf (grid0.coords t) (iblk m c 0 t) (iblk m c 1 t) (iblk m c 2 t) (iblk m c 3 t)

/-- What the accumulator's staging buffer holds after the body at position n: cleared and given the first tile's
    partial loss at position 0, the next tile's added at every later position. -/
def accAt (c : Dev nD) : (n : ℕ) → n < cfg0.N → Vec F S1x1 .f32
  | 0, hn => k0_pay1 (tileAt m c ⟨0, hn⟩) (k0_pay2 (F := F))
  | n + 1, hn => k0_pay1 (tileAt m c ⟨n + 1, hn⟩) (accAt c n (Nat.lt_of_succ_lt hn))

theorem accAt_first (c : Dev nD) (t : Fin cfg0.N) (h0 : t.val = 0) :
    accAt m c t.val t.isLt = k0_pay1 (tileAt m c t) (k0_pay2 (F := F)) := by
  obtain ⟨n, hn⟩ := t
  cases n with
  | zero => rfl
  | succ n => exact absurd h0 (Nat.succ_ne_zero n)

theorem accAt_later (c : Dev nD) (t : Fin cfg0.N) (h0 : ¬t.val = 0) :
    accAt m c t.val t.isLt = k0_pay1 (tileAt m c t) (accAt m c (t.val - 1) (Nat.lt_of_le_of_lt (Nat.sub_le _ _) t.isLt)) := by
  obtain ⟨n, hn⟩ := t
  cases n with
  | zero => exact absurd rfl h0
  | succ n => rfl

/-! ## The pipeline's proof data -/

/-- The two input windows on one array hold complementary halves of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- At the first point the accumulator's staging buffer is fresh. -/
theorem before4_first (c : Dev nD) (t : Fin cfg0.N) (h0 : t.val = 0) (d) : (dats m 0 c).before 4 t d = d :=
  Dat.before_out_reset _ 4 rfl t (.inl h0) d

/-- At a later point it holds what the body left at the point before: it is written back only after the last point. -/
theorem before4_later (c : Dev nD) (t : Fin cfg0.N) (h0 : ¬t.val = 0) (d) :
    (dats m 0 c).before 4 t d = accAt m c (t.val - 1) (Nat.lt_of_le_of_lt (Nat.sub_le _ _) t.isLt) := by
  have hN : t.val < 64 := lt_of_lt_of_eq t.isLt (show cfg0.N = 64 from N_0)
  rw [Dat.before_out_kept _ 4 rfl t h0 (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any grid point: the input buffers hold their blocks; at the first point the accumulator is cleared,
    at a later one it holds what the point before left; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h0 : t.val = 0
  · rw [accAt_first m c t h0]
    simp only [before4_first m c t h0]
    iintro ⟨HΦ, Ho, ⟨%d0, H0⟩, ⟨%d1, H1⟩, ⟨%d2, H2⟩, ⟨%d3, H3⟩, H4⟩
    iapply (run_first c (grid0.coords t) _ _ _ _ _ _ _ _ _ _ ((hcond0 t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt_later m c t h0]
    simp only [before4_later m c t h0]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun h => h0 ((hcond0 t).mp h)) (iblk m c 0 t) (iblk m c 1 t) (iblk m c 2 t) (iblk m c 3 t) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frm

end
-- ==== Proof.KIRun.lean ====
import proofs.«156422_j38439957299681_1_alg».proof.Proof.Gen.KernelIdeal.Launch
import proofs.«156422_j38439957299681_1_alg».proof.Proof.Gen.KernelIdeal.Skeleton
import proofs.«156422_j38439957299681_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«156422_j38439957299681_1_alg».proof.Proof.KIData
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch

The region is @main's first line; one host line follows it, recasting the 1×1 result as a scalar.  The two input
windows on x hold complementary halves of x's buffer, and likewise on y. -/

/-- The buffers after the region: the accumulator's array at what the last write-back left, every other buffer as
    launched. -/
def Wexit (c : Dev nD) : Valuation τ sig (Elt F) :=
  open Classical in Function.update (fun b => m (c, b)) (Proc.devRef .tc main_v0) ((dats m 0 c).arrAt 4 cfg0.N)

/-- The scalar result: the host line's reading of those buffers. -/
def resOf (c : Dev nD) : Buf (Elt F) ((c : Thread nD τ).loc main_v1) :=
  StableHlo.after (hostOps1 (F := F)) (Wexit m c) (Proc.devRef .tc main_v1)

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have himg : Finset.univ.image (Pipeline.arrRef spec0) = ([main_arg0, main_arg1, main_v0] : List (Ref sig .tc)).toFinset := by decide
  have e : ∀ w : Fin 5, ((cfg0.win w).arr.view.loc (c.tc : Thread nD τ) ↦[(cfg0.win w).arr.view.set]{(dats m 0 c).share w} (dats m 0 c).arrAt w 0 : sProp 𝕄)
      = ((c.tc : Thread nD τ).loc (Pipeline.arrRef spec0 w) ↦{(dats m 0 c).share w} V m c (Pipeline.arrRef spec0 w)) := fun w => by
    rw [(arr_whole0 w).set_eq_univ]; rfl
  unfold Pipeline.arrBufs Dat.arrays
  rw [bigSep_eq_bigSepL_of_eq _ himg (by decide), bigSep_congr (fun w _ => e w), bigSep_W0]
  show iprop((((c.tc : Thread nD τ).loc main_arg0) ↦{fullShare} V m c main_arg0) ∗ (((c.tc : Thread nD τ).loc main_arg1) ↦{fullShare} V m c main_arg1)
        ∗ (((c.tc : Thread nD τ).loc main_v0) ↦{fullShare} V m c main_v0))
    ⊢ iprop((((c.tc : Thread nD τ).loc main_arg0) ↦{fullShare.left} V m c main_arg0) ∗ (((c.tc : Thread nD τ).loc main_arg0) ↦{fullShare.right} V m c main_arg0)
        ∗ (((c.tc : Thread nD τ).loc main_arg1) ↦{fullShare.left} V m c main_arg1) ∗ (((c.tc : Thread nD τ).loc main_arg1) ↦{fullShare.right} V m c main_arg1)
        ∗ (((c.tc : Thread nD τ).loc main_v0) ↦{fullShare} V m c main_v0))
  iintro ⟨H0, H1, H2⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  iexact H2

theorem htail (c : Dev nD) (Q' : PUnit → sProp 𝕄) :
    iprop((iprop((dats m 0 c).arrays ((dats m 0 c).arrAt · cfg0.N)
            ∗ (((c : Thread nD τ).loc main_v1) ↦{fullShare} resOf m c)) -∗ Q' ⟨⟩)
        ∗ boundary (c.tc : Thread nD τ) ∗ (dats m 0 c).arrays ((dats m 0 c).arrAt · cfg0.N)
        ∗ (((c : Thread nD τ).loc main_v1) ↦{fullShare} V m c main_v1))
      ⊢ wp frame (wpE (defs (F := F)) (Variants.lift Variants.none) (c.tc : Thread nD τ) none) Set.univ
          (Pipeline.chain [StableHlo.seq (hostOps1 (F := F))]) Q' := by
  classical
  have hS : ∀ ops ∈ [hostOps1 (F := F)], ∀ op ∈ ops, op.bufs ⊆ ({Proc.devRef .tc main_v0, Proc.devRef .tc main_v1} : Finset (DevRef τ sig)) := by
    intro ops hops op hop
    rw [List.mem_singleton] at hops; subst hops
    rw [hostOps1, List.mem_singleton] at hop; subst hop
    exact subset_refl _
  have hf : ∀ ops ∈ [hostOps1 (F := F)], ∀ op ∈ ops, op.fresh = ∅ := by
    intro ops hops op hop
    rw [List.mem_singleton] at hops; subst hops
    rw [hostOps1, List.mem_singleton] at hop; subst hop
    rfl
  have hne : (Proc.devRef (τ := τ) .tc main_v0 : DevRef τ sig) ∉ ({Proc.devRef .tc main_v1} : Finset (DevRef τ sig)) := by decide
  have hheld : ∀ W : Valuation τ sig (Elt F),
      (StableHlo.held (c.tc : Thread nD τ) ({Proc.devRef .tc main_v0, Proc.devRef .tc main_v1} : Finset (DevRef τ sig)) W : sProp 𝕄)
        = iprop((((c : Thread nD τ).loc main_v0) ↦{fullShare} W (Proc.devRef .tc main_v0)) ∗ (((c : Thread nD τ).loc main_v1) ↦{fullShare} W (Proc.devRef .tc main_v1))) := fun W => by
    unfold StableHlo.held
    rw [bigSep_insert hne, BI.bigSep_singleton]; rfl
  have hW0 : Wexit m c (Proc.devRef .tc main_v0) = (dats m 0 c).arrAt 4 cfg0.N := by
    unfold Wexit; exact Function.update_self _ _ _
  have hW1 : Wexit m c (Proc.devRef .tc main_v1) = V m c main_v1 := by
    unfold Wexit; exact Function.update_of_ne (by decide) _ _
  have hA0 : StableHlo.after (hostOps1 (F := F)) (Wexit m c) (Proc.devRef .tc main_v0) = (dats m 0 c).arrAt 4 cfg0.N := by
    rw [StableHlo.after_of_forall_not_mem _ _ (fun op hop => by
      rw [hostOps1, List.mem_singleton] at hop; subst hop; exact hne), hW0]
  have e4 : ((cfg0.win 4).arr.view.loc (c.tc : Thread nD τ) ↦[(cfg0.win 4).arr.view.set]{(dats m 0 c).share 4} (dats m 0 c).arrAt 4 cfg0.N : sProp 𝕄)
      = (((c : Thread nD τ).loc main_v0) ↦{fullShare} (dats m 0 c).arrAt 4 cfg0.N) := by
    rw [(arr_whole0 4).set_eq_univ]; rfl
  unfold Dat.arrays
  rw [bigSep_W0, e4, show Pipeline.chain [StableHlo.seq (hostOps1 (F := F))]
      = (Pipeline.chain ([hostOps1 (F := F)].map StableHlo.seq ++ []) : Prog (TpuEff nD τ sig (Elt F) (Pipeline.Sig Λ₀ (Fin 1) fun p => (pcfgs (F := F) p).Adm) .tc) PUnit) from rfl]
  iintro ⟨Hk, Hb, ⟨A0, A1, A2, A3, A4⟩, Hv1⟩
  iapply (Pipeline.wp_seqs_then pcfgs defs₀ Variants.none c ({Proc.devRef .tc main_v0, Proc.devRef .tc main_v1} : Finset (DevRef τ sig)) [] [hostOps1 (F := F)] hS hf (Wexit m c)) $$ [Hb A4 Hv1]
  · rw [hheld, hW0, hW1]
    isplitl [Hb]; · iexact Hb
    isplitl [A4]; · iexact A4
    iexact Hv1
  iintro Hb
  rw [Pipeline.chain_nil, wp_pure, hheld, List.flatten_singleton, hA0]
  imodintro
  iapply Hk
  icases Hb with ⟨-, A4, Hv1⟩
  isplitr [Hv1]
  · isplitl [A0]; · iexact A0
    isplitl [A1]; · iexact A1
    isplitl [A2]; · iexact A2
    isplitl [A3]; · iexact A3
    iexact A4
  iexact Hv1

set_option backward.isDefEq.respectTransparency.types false in
/-- From any memory with zero counters: every weakly fair execution of @main terminates without a fault, the
    scalar result at the host line's reading of the accumulated loss, the two argument arrays unchanged. -/
theorem run_main : θ_run defs (onTc (τ := τ) (main (F := F))) ⟨m, fun _ => 0, ρ⟩ (fun r => ∀ c : Dev nD,
      r.2.mem ((c.tc : Thread nD τ).loc main_v1) = resOf m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail pcfgs (fun p => (cfgs p).toPCfg_adm) (dats m) () cellOf_inj (0 : Fin 1) winFacts₀0
    (Pipeline.OwnSemFacts.none spec0) (Pipeline.PreFacts.none _) emb₁ defs₀ Variants.none m ρ main
    (fun _ => Pipeline.chain [StableHlo.seq (hostOps1 (F := F))])
    (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m)
    (hmain := fun c Q => by
      rw [main_chain c]
      iintro ⟨Hk, Hb⟩; iapply Hk; iexact Hb)
    (hsplit := hsplit m)
    (hpf := fun _ k => k.elim0)
    (X := fun c => iprop(∃ r, prngReg c r)) (Y := fun c => iprop(∃ r, prngReg c r))
    (Z := fun c => iprop(((c : Thread nD τ).loc main_v1) ↦{fullShare} V m c main_v1))
    (Z' := fun c => iprop(((c : Thread nD τ).loc main_v1) ↦{fullShare} resOf m c))
    (hX := fun c => by
      rw [Pipeline.unscopedRestP_none, unscopedRest0_eq]
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => s.mem ((c.tc : Thread nD τ).loc main_v1) = resOf m c)
    (hY := fun c s' => by
      iintro ⟨-, H0, HSI⟩
      icombine HSI H0 gives %h0
      imodintro
      isplitr; · ipureintro; exact Buf.eq_of_forall_mem_univ h0
      iexact HSI)
    (hQ := fun s h c => ⟨(h c).2.2,
      ((h c).1 0).trans ((dats m 0 c).arrAt_in 0 rfl _),
      ((h c).1 2).trans ((dats m 0 c).arrAt_in 2 rfl _)⟩)

end Cert.KernelIdeal.Frm

end
-- ==== Proof.Spec.lean ====
/-
  The quantity both programs compute, over the extended reals.

  For a matrix a with 4096 rows, d(a) r c is the Euclidean distance between rows r and c computed through
  the Gram identity: |a_r|² + |a_c|² − 2⟨a_r, a_c⟩, clamped below at 0, replaced by ε where it does not
  exceed ε, then the square root.  The loss is the sum over all ordered pairs r ≠ c with d(x) r c ≤ 46 of
  exp(−d(x) r c / 10) · d(y) r c.  The four constants are kept as the binary words both programs print.
-/
import Idealize.ShloMosaic.PureOps.Ideal

noncomputable section

namespace Cert.Spec

open Idealize.ShloMosaic

/-- The factor 2 of the Gram identity. -/
def two : EReal := Ideal.ofBits .f32 0x40000000#32
/-- The floor ε under the squared distance before the square root. -/
def eps : EReal := Ideal.ofBits .f32 0x2B8CBCCC#32
/-- The neighbourhood threshold 46. -/
def thr : EReal := Ideal.ofBits .f32 0x42380000#32
/-- The bandwidth 10 of the heat-kernel weight. -/
def sigma : EReal := Ideal.ofBits .f32 0x41200000#32

variable {D : Nat}

/-- The squared norm of row r. -/
def sq (a : Fin 4096 → Fin D → EReal) (r : Fin 4096) : EReal := ∑ k : Fin D, a r k * a r k

/-- The inner product of rows r and c. -/
def dot (a : Fin 4096 → Fin D → EReal) (r c : Fin 4096) : EReal := ∑ k : Fin D, a r k * a c k

/-- The squared distance by the Gram identity, clamped below at 0. -/
def d2 (a : Fin 4096 → Fin D → EReal) (r c : Fin 4096) : EReal := max (sq a r + sq a c - two * dot a r c) 0

/-- The distance: the square root of the squared distance floored at ε. -/
def dist (a : Fin 4096 → Fin D → EReal) (r c : Fin 4096) : EReal :=
  Ideal.sqrt (Scalar.select (Ideal.cmp .ogt (d2 a r c) eps) (d2 a r c) eps)

/-- 1 off the diagonal, 0 on it. -/
def offd (r c : Fin 4096) : EReal := if r = c then 0 else 1

/-- 1 where the distance is at most the threshold, else 0. -/
def near (d : EReal) : EReal := if Ideal.cmp .ole d thr = 1#1 then 1 else 0

/-- One ordered pair's contribution. -/
def term (x : Fin 4096 → Fin 1024 → EReal) (y : Fin 4096 → Fin 512 → EReal) (r c : Fin 4096) : EReal :=
  offd r c * near (dist x r c) * Ideal.exp (Ideal.div (-(dist x r c)) sigma) * dist y r c

/-- The loss: the sum of all ordered pairs' contributions. -/
def loss (x : Fin 4096 → Fin 1024 → EReal) (y : Fin 4096 → Fin 512 → EReal) : EReal :=
  ∑ r : Fin 4096, ∑ c : Fin 4096, term x y r c

end Cert.Spec

end
-- ==== Proof.LibKeepdims.lean ====
/-
  Layout steps and single-axis reductions of small-rank arrays read at an index given by coordinates — a general
  module: every lemma is general in the extents, and the layout lemmas in the element type.
  Layout:
  • `shapeCast_a_a1_apply`: a vector recast as a column, `[a] → [a, 1]`, at `(i, u)` is the vector at `i`;
  • `broadcastTo_a1_ab_apply`: a column broadcast across the lanes, `[a, 1] → [a, b]`, at `(i, j)` is the column at `(i, 0)`;
  • `broadcastTo_11_ab_apply`: a one-entry matrix broadcast to `[a, b]` reads its one entry everywhere;
  • `shapeCast_ab_a1b_apply`: a matrix given a middle unit axis, `[a, b] → [a, 1, b]`, at `(i, u, k)` is the matrix at `(i, k)`;
  • `broadcastTo_a1c_abc_apply`: `[a, 1, c] → [a, b, c]` at `(i, j, k)` is the operand at `(i, 0, k)`.
  Reductions over one axis, at the exact values: the source index over a result index with coordinate `k` on the reduced
  axis (`lift_last_ab`, `lift_last_abc`, `lift_mid_abc`), and with them
  • `multiReduction_add_last_ab`, `multiReduction_add_last_abc`, `multiReduction_add_mid_abc`: an add reduction read as the
    sum over the reduced coordinate;
  • `multiReduction_max_last_abc`: a maximum reduction along the last axis read as the fold of `max` from the accumulator.
-/
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

namespace Cert.LibKeepdims

open Idealize.ShloMosaic Idealize.ShloMosaic.ValueIdx

section Layout
variable {α : Type}

/-- A vector recast as a column reads, at `(i, u)`, its entry `i`: the unit axis contributes nothing to the row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the lanes reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A one-entry matrix broadcast to `[a, b]` reads its one entry at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A matrix given a middle unit axis reads, at `(i, u, k)`, the matrix at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Layout

section Lift

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- Reducing `[a, b, c]` over its last axis: over `(i, j)`, coordinate `k` on the reduced axis is `(i, j, k)`. -/
theorem lift_last_abc {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Reducing `[a, b, c]` over its middle axis: over `(i, k)`, coordinate `j` on the reduced axis is `(i, j, k)`. -/
theorem lift_mid_abc {a b c : ℕ} (h : (⟨3, ![a, b, c]⟩ : Shape).Reduces [1] ⟨2, ![a, c]⟩) (i : Fin a) (k : Fin c) (j : Fin b) :
    h.lift (ix2 i k) j = ix3 i j k := by
  funext ax
  apply Fin.ext
  match ax with
  | ⟨0, _⟩ => rfl
  | ⟨1, _⟩ => rfl
  | ⟨2, _⟩ => rfl

end Lift

section Reductions
variable {φ : FTy}

/-- An add reduction of `[a, b]` along its last axis, at the exact values, read at `i`: the row's sum. -/
theorem multiReduction_add_last_ab {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last_ab h i k))

/-- An add reduction of `[a, b, c]` along its last axis, at the exact values, read at `(i, j)`. -/
theorem multiReduction_add_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_abc h i j k))

/-- An add reduction of `[a, b, c]` along its middle axis, at the exact values, read at `(i, k)`. -/
theorem multiReduction_add_mid_abc {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid_abc h i k j))

/-- A maximum reduction of `[a, b, c]` along its last axis, at the exact values, read at `(i, j)`: the fold of `max` from
    the accumulator's value over the row. -/
theorem multiReduction_max_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_last_abc h i j k)))

end Reductions

end Cert.LibKeepdims
-- ==== Proof.TileLayout.lean ====
/-
  Layout steps of one tile's arithmetic, read at an index given by coordinates: a column of sums reduced over its
  rows, and the two matrix products of a block against a transposed block read as sums over the contraction coordinate.
-/
import proofs.«156422_j38439957299681_1_alg».proof.Proof.Gen.KernelIdeal.Skeleton
import proofs.«156422_j38439957299681_1_alg».proof.Proof.LibKeepdims

namespace Cert.TileLayout

open Idealize.ShloMosaic Idealize.ShloMosaic.ValueIdx

section Layout
variable {α : Type}

/-- Reducing [a, 1] over its first axis: over the result index u, coordinate k on the reduced axis is (k, u). -/
theorem lift_first_a1 {a : ℕ} (h : (⟨2, ![a, 1]⟩ : Shape).Reduces [0] ⟨1, ![1]⟩) (u : Fin 1) (k : Fin a) :
    h.lift (ix1 u) k = ix2 k u := by
  funext ax
  apply Fin.ext
  match ax with
  | ⟨0, _⟩ => rfl
  | ⟨1, _⟩ => rfl

end Layout

/-- An add reduction of a column [a, 1] over its rows, at the exact values: the sum of the column's entries. -/
theorem multiReduction_add_first_a1 {φ : FTy} {a : ℕ} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ k : Fin a, src (ix2 k u) :=
  (Ideal.multiReduction_add_single src acc h hφ hacc (ix1 u)).trans
    (Finset.sum_congr rfl fun k _ => congrArg src (lift_first_a1 h u k))

section Dots

open Cert.KernelIdeal

theorem dX_lhs0 (j : S512x512.Idx) (c : dot_S512x1024_S1024x512_S512x512_1_0_0_1_n_n.contr.Idx) : (dot_S512x1024_S1024x512_S512x512_1_0_0_1_n_n.lhsIdx j c 0).val = (j 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem dX_lhs1 (j : S512x512.Idx) (c : dot_S512x1024_S1024x512_S512x512_1_0_0_1_n_n.contr.Idx) : (dot_S512x1024_S1024x512_S512x512_1_0_0_1_n_n.lhsIdx j c 1).val = (c ⟨0, by decide⟩).val :=
  dot_S512x1024_S1024x512_S512x512_1_0_0_1_n_n.lhsIdx_val_of_single rfl j c
theorem dX_rhs0 (j : S512x512.Idx) (c : dot_S512x1024_S1024x512_S512x512_1_0_0_1_n_n.contr.Idx) : (dot_S512x1024_S1024x512_S512x512_1_0_0_1_n_n.rhsIdx j c 0).val = (c ⟨0, by decide⟩).val :=
  dot_S512x1024_S1024x512_S512x512_1_0_0_1_n_n.rhsIdx_val_of_single rfl j c
theorem dX_rhs1 (j : S512x512.Idx) (c : dot_S512x1024_S1024x512_S512x512_1_0_0_1_n_n.contr.Idx) : (dot_S512x1024_S1024x512_S512x512_1_0_0_1_n_n.rhsIdx j c 1).val = (j 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The product of a [512, 1024] block with a [1024, 512] block into the zero matrix, at the exact values, read at
    (p, q): the sum over the contraction coordinate of the products of the two blocks' entries. -/
theorem matmulX_apply {φ₁ φ₂ : FTy} (l : FVec Ideal S512x1024 φ₁) (r : FVec Ideal S1024x512 φ₂) (p q : Fin 512) :
    matmul dot_S512x1024_S1024x512_S512x512_1_0_0_1_n_n none l r (constant S512x512 .f32 0x00000000#32) (ix2 p q) = ∑ k : Fin 1024, l (ix2 p k) * r (ix2 k q) := by
  show FloatOps.matmul dot_S512x1024_S1024x512_S512x512_1_0_0_1_n_n none l r (constant S512x512 .f32 0x00000000#32) (ix2 p q) = _
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q) ((contrEquiv1 dot_S512x1024_S1024x512_S512x512_1_0_0_1_n_n 1024 rfl rfl).symm k) = ix2 p k := funext fun a => Fin.ext (by
    match a with
    | ⟨0, _⟩ => exact dX_lhs0 _ _
    | ⟨1, _⟩ => exact (dX_lhs1 _ _).trans hk)
  have er : dot_S512x1024_S1024x512_S512x512_1_0_0_1_n_n.rhsIdx (ix2 p q) ((contrEquiv1 dot_S512x1024_S1024x512_S512x512_1_0_0_1_n_n 1024 rfl rfl).symm k) = ix2 k q := funext fun a => Fin.ext (by
    match a with
    | ⟨0, _⟩ => exact (dX_rhs0 _ _).trans hk
    | ⟨1, _⟩ => exact dX_rhs1 _ _)
  rw [el, er]

theorem dY_lhs0 (j : S512x512.Idx) (c : dot_S512x512_S512x512_S512x512_1_0_0_1_n_n.contr.Idx) : (dot_S512x512_S512x512_S512x512_1_0_0_1_n_n.lhsIdx j c 0).val = (j 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem dY_lhs1 (j : S512x512.Idx) (c : dot_S512x512_S512x512_S512x512_1_0_0_1_n_n.contr.Idx) : (dot_S512x512_S512x512_S512x512_1_0_0_1_n_n.lhsIdx j c 1).val = (c ⟨0, by decide⟩).val :=
  dot_S512x512_S512x512_S512x512_1_0_0_1_n_n.lhsIdx_val_of_single rfl j c
theorem dY_rhs0 (j : S512x512.Idx) (c : dot_S512x512_S512x512_S512x512_1_0_0_1_n_n.contr.Idx) : (dot_S512x512_S512x512_S512x512_1_0_0_1_n_n.rhsIdx j c 0).val = (c ⟨0, by decide⟩).val :=
  dot_S512x512_S512x512_S512x512_1_0_0_1_n_n.rhsIdx_val_of_single rfl j c
theorem dY_rhs1 (j : S512x512.Idx) (c : dot_S512x512_S512x512_S512x512_1_0_0_1_n_n.contr.Idx) : (dot_S512x512_S512x512_S512x512_1_0_0_1_n_n.rhsIdx j c 1).val = (j 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The same for two [512, 512] blocks. -/
theorem matmulY_apply {φ₁ φ₂ : FTy} (l : FVec Ideal S512x512 φ₁) (r : FVec Ideal S512x512 φ₂) (p q : Fin 512) :
    matmul dot_S512x512_S512x512_S512x512_1_0_0_1_n_n none l r (constant S512x512 .f32 0x00000000#32) (ix2 p q) = ∑ k : Fin 512, l (ix2 p k) * r (ix2 k q) := by
  show FloatOps.matmul dot_S512x512_S512x512_S512x512_1_0_0_1_n_n none l r (constant S512x512 .f32 0x00000000#32) (ix2 p q) = _
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact dY_lhs0 _ _
    | ⟨1, _⟩ => exact (dY_lhs1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (dY_rhs0 _ _).trans hk
    | ⟨1, _⟩ => exact dY_rhs1 _ _)
  rw [el, er]

end Dots

end Cert.TileLayout
-- ==== Proof.TileValue.lean ====
/-
  One tile's partial loss. At grid point (i, j) the tile's arithmetic takes rows 512 i … of x and y (the row block) and rows
  512 j … of x and y (the column block) and computes, for each pair (p, q) of a row of the first block and a row of the
  second, the pair's contribution to the loss — the off-diagonal mask, the neighbourhood mask, the heat-kernel weight of
  the distance in x, times the distance in y — and sums the contributions over the tile. Every step is read at an index:
  the squared norms as sums over a row, the inner products as the matrix product's sums over the contraction coordinate,
  the distance from the Gram identity, the masks from the comparison words, and the two reductions as a double sum.
-/
import proofs.«156422_j38439957299681_1_alg».proof.Proof.Gen.KernelIdeal.Skeleton
import proofs.«156422_j38439957299681_1_alg».proof.Proof.Spec
import proofs.«156422_j38439957299681_1_alg».proof.Proof.TileLayout

noncomputable section

namespace Cert.TileValue

open Idealize.ShloMosaic Idealize.ShloMosaic.ValueIdx Cert.KernelIdeal Cert.LibKeepdims Cert.TileLayout

/-- Row p of the i-th block of 512 rows. -/
def row (i : Fin 8) (p : Fin 512) : Fin 4096 := ⟨512 * i.val + p.val, by omega⟩

/-! ## Words -/

/-- A one-bit word widened to 32 bits and read as a signed integer is 1 when the bit is set, else 0. -/
theorem bit_to_float (b : BitVec 1) : FloatOps.sitofp (F := Ideal) .f32 (b.setWidth 32) = if b = 1#1 then 1 else 0 := by
  by_cases h : b = 1#1
  · subst h
    rw [if_pos rfl]
    show (((BitVec.setWidth 32 1#1).toInt : ℝ) : EReal) = 1
    have e : (BitVec.setWidth 32 1#1).toInt = 1 := by decide
    rw [e, Int.cast_one, EReal.coe_one]
  · have h0 := eq_zero_of_ne_one h
    subst h0
    rw [if_neg (by decide)]
    show (((BitVec.setWidth 32 0#1).toInt : ℝ) : EReal) = 0
    have e : (BitVec.setWidth 32 0#1).toInt = 0 := by decide
    rw [e, Int.cast_zero, EReal.coe_zero]

/-- The 32-bit word i · 512 + p of a block index i < 8 and an offset p < 512 is the word of the row's number: nothing wraps. -/
theorem word_row (i : Fin 8) (p : Fin 512) :
    IntOp.addi (Scalar.muli (BitVec.ofNat 32 i.val) 512#32) (BitVec.ofNat 32 p.val) = BitVec.ofNat 32 (row i p).val := by
  show BitVec.ofNat 32 i.val * BitVec.ofNat 32 512 + BitVec.ofNat 32 p.val = BitVec.ofNat 32 (512 * i.val + p.val)
  rw [BitVec.ofNat_add, BitVec.ofNat_mul, BitVec.mul_comm]

/-- Two row numbers have the same 32-bit word only when they are the same row. -/
theorem word_inj (r c : Fin 4096) : BitVec.ofNat 32 r.val = BitVec.ofNat 32 c.val ↔ r = c := by
  constructor
  · intro h
    have e := congrArg BitVec.toNat h
    rw [BitVec.toNat_ofNat, BitVec.toNat_ofNat, Nat.mod_eq_of_lt (by omega), Nat.mod_eq_of_lt (by omega)] at e
    exact Fin.ext e
  · rintro rfl; rfl

/-! ## The distance -/

/-- The distance from the Gram expression g: the square root of max g 0 floored at ε. -/
def distOfGram (g : EReal) : EReal :=
  Ideal.sqrt (Scalar.select (Ideal.cmp .ogt (max g 0) Spec.eps) (max g 0) Spec.eps)

theorem dist_eq {D : ℕ} (a : Fin 4096 → Fin D → EReal) (r c : Fin 4096) :
    Spec.dist a r c = distOfGram (Spec.sq a r + Spec.sq a c - Spec.two * Spec.dot a r c) := rfl

/-- The clamp at 0, the floor at ε and the square root act entry by entry. -/
theorem clamp_apply (g : FVec Ideal S512x512 .f32) (j : S512x512.Idx) :
    sqrt (select (cmpf .ogt (maximumf g (broadcast S512x512 (Scalar.ofBits (F := Ideal) .f32 0x00000000#32)))
          (broadcast S512x512 (Scalar.ofBits (F := Ideal) .f32 0x2B8CBCCC#32)))
        (maximumf g (broadcast S512x512 (Scalar.ofBits (F := Ideal) .f32 0x00000000#32)))
        (broadcast S512x512 (Scalar.ofBits (F := Ideal) .f32 0x2B8CBCCC#32))) j = distOfGram (g j) := by
  show Ideal.sqrt (Scalar.select (Ideal.cmp .ogt (max (g j) (Ideal.ofBits .f32 0x00000000#32)) Spec.eps)
    (max (g j) (Ideal.ofBits .f32 0x00000000#32)) Spec.eps) = _
  rw [Ideal.ofBits_zero_f32]
  rfl

/-- The Gram expression at (p, q): the column of the first block's squared norms read at p, the column of the second
    block's turned into a row and read at q, minus twice the matrix of inner products at (p, q). -/
theorem gram_apply (sa sb : FVec Ideal S512x1 .f32) (mm : FVec Ideal S512x512 .f32)
    (ht : S512x1.Transposes [1, 0] S1x512) (hb1 : S512x1.Broadcasts S512x512) (hb2 : S1x512.Broadcasts S512x512) (p q : Fin 512) :
    subf (addf (broadcastTo S512x512 sa hb1) (broadcastTo S512x512 (transpose S1x512 [1, 0] sb ht) hb2))
        (mulf (broadcast S512x512 (Scalar.ofBits (F := Ideal) .f32 0x40000000#32)) mm) (ix2 p q)
      = sa (ix2 p 0) + sb (ix2 q 0) - Spec.two * mm (ix2 p q) := by
  have h1 : broadcastTo S512x512 sa hb1 (ix2 p q) = sa (ix2 p 0) := broadcastTo_a1_ab_apply sa hb1 p q
  have h2 : broadcastTo S512x512 (transpose S1x512 [1, 0] sb ht) hb2 (ix2 p q) = sb (ix2 q 0) :=
    (broadcastTo_1b_ab_apply _ hb2 p q).trans (transpose_ix2_apply sb ht 0 q)
  show broadcastTo S512x512 sa hb1 (ix2 p q) + broadcastTo S512x512 (transpose S1x512 [1, 0] sb ht) hb2 (ix2 p q)
    - Spec.two * mm (ix2 p q) = _
  rw [h1, h2]

/-- The squares of a block's entries summed along each row and laid as a column: at (p, u), row p's squared norm. -/
theorem sqcol_apply {n : ℕ} (v : FVec Ideal ⟨2, ![512, n]⟩ .f32) (h : (⟨2, ![512, n]⟩ : Shape).Reduces [1] S512)
    (hφ : FKind.Formats .f32) (hacc : (0x00000000#32 : BitVec 32) = FKind.add.neutral .f32 hφ) (hs : S512.ShapeCasts S512x1)
    (p : Fin 512) (u : Fin 1) :
    shapeCast S512x1 (multiReduction (F := Ideal) .add [1] S512 (mulf v v) 0x00000000#32 h hφ hacc) hs (ix2 p u)
      = ∑ k : Fin n, v (ix2 p k) * v (ix2 p k) :=
  (shapeCast_a_a1_apply _ hs p u).trans (multiReduction_add_last_ab (mulf v v) _ h hφ hacc p)

/-- The distance in x of row p of block i and row q of block j, as the tile computes it from the two loaded blocks. -/
theorem pay3_apply (X : Fin 4096 → Fin 1024 → EReal) (i j : Fin 8) (v5 v6 : Vec Ideal S512x1024 .f32)
    (h5 : ∀ p k, v5 (ix2 p k) = X (row i p) k) (h6 : ∀ q k, v6 (ix2 q k) = X (row j q) k) (p q : Fin 512) :
    Gen.k0_pay3 (F := Ideal) v5 v6 (ix2 p q) = Spec.dist X (row i p) (row j q) := by
  unfold Gen.k0_pay3
  refine (clamp_apply _ (ix2 p q)).trans ?_
  rw [dist_eq]
  refine congrArg distOfGram ?_
  refine (gram_apply _ _ _ _ _ _ p q).trans ?_
  refine congr (congrArg HSub.hSub (congr (congrArg HAdd.hAdd ?_) ?_)) (congrArg (Spec.two * ·) ?_)
  · exact (sqcol_apply v5 _ _ _ _ p 0).trans (Finset.sum_congr rfl fun k _ => by rw [h5])
  · exact (sqcol_apply v6 _ _ _ _ q 0).trans (Finset.sum_congr rfl fun k _ => by rw [h6])
  · refine (matmulX_apply _ _ p q).trans (Finset.sum_congr rfl fun k _ => ?_)
    refine congr (congrArg HMul.hMul ?_) ?_
    · exact h5 p k
    · exact (transpose_ix2_apply _ _ k q).trans (h6 q k)

/-! ## The masks and the weight -/

/-- The off-diagonal mask at (p, q): the comparison of the two rows' numbers i · 512 + p and j · 512 + q, as a float. -/
theorem offd_apply (i j : Fin 8) (h0 : S512x512.Iotas .tc 32 [0]) (h1 : S512x512.Iotas .tc 32 [1]) (hw : 1 < 32) (p q : Fin 512) :
    (sitofp (F := Ideal) .f32 (extui 32 (cmpi .ne
        (addi (broadcast S512x512 (Scalar.muli (BitVec.ofNat 32 i.val) 512#32)) (iota .tc S512x512 32 [0] h0))
        (addi (broadcast S512x512 (Scalar.muli (BitVec.ofNat 32 j.val) 512#32)) (iota .tc S512x512 32 [1] h1))) hw)) (ix2 p q)
      = Spec.offd (row i p) (row j q) := by
  have e0 : iota .tc S512x512 32 [0] h0 (ix2 p q) = BitVec.ofNat 32 p.val := iota_single_apply .tc S512x512 32 0 h0 (ix2 p q)
  have e1 : iota .tc S512x512 32 [1] h1 (ix2 p q) = BitVec.ofNat 32 q.val := iota_single_apply .tc S512x512 32 1 h1 (ix2 p q)
  show FloatOps.sitofp (F := Ideal) .f32 ((IntOp.cmpi .ne
      (IntOp.addi (Scalar.muli (BitVec.ofNat 32 i.val) 512#32) (iota .tc S512x512 32 [0] h0 (ix2 p q)))
      (IntOp.addi (Scalar.muli (BitVec.ofNat 32 j.val) 512#32) (iota .tc S512x512 32 [1] h1 (ix2 p q)))).setWidth 32) = _
  rw [e0, e1, word_row, word_row, bit_to_float]
  unfold Spec.offd
  by_cases hrc : row i p = row j q
  · rw [if_pos hrc, hrc, if_neg]
    show ¬ BitVec.ofBool (BitVec.ofNat 32 (row j q).val != BitVec.ofNat 32 (row j q).val) = 1#1
    simp
  · rw [if_neg hrc, if_pos]
    show BitVec.ofBool (BitVec.ofNat 32 (row i p).val != BitVec.ofNat 32 (row j q).val) = 1#1
    have hne : BitVec.ofNat 32 (row i p).val ≠ BitVec.ofNat 32 (row j q).val := fun h => hrc ((word_inj _ _).mp h)
    rw [bne_iff_ne.mpr hne]
    rfl

/-- The neighbourhood mask at an index: 1 where the distance there is at most the threshold. -/
theorem near_apply (d : FVec Ideal S512x512 .f32) (hw : 1 < 32) (j : S512x512.Idx) :
    (sitofp (F := Ideal) .f32 (extui 32 (cmpf .ole d (broadcast S512x512 (Scalar.ofBits (F := Ideal) .f32 0x42380000#32))) hw)) j
      = Spec.near (d j) :=
  bit_to_float (Ideal.cmp .ole (d j) Spec.thr)

/-- The heat-kernel weight at an index: 0 − d is −d. -/
theorem heat_apply (d : FVec Ideal S512x512 .f32) (j : S512x512.Idx) :
    exp (divf (subf (broadcast S512x512 (Scalar.ofBits (F := Ideal) .f32 0x00000000#32)) d)
      (broadcast S512x512 (Scalar.ofBits (F := Ideal) .f32 0x41200000#32))) j = Ideal.exp (Ideal.div (-(d j)) Spec.sigma) := by
  show Ideal.exp (Ideal.div (Ideal.ofBits .f32 0x00000000#32 - d j) Spec.sigma) = _
  rw [Ideal.ofBits_zero_f32, zero_sub]

/-! ## The tile's sum -/

/-- The two reductions — along each row, then of the column of row sums over the rows — read at the result's one
    index: the double sum over the tile. -/
theorem total_apply (w : FVec Ideal S512x512 .f32) (h1 : S512x512.Reduces [1] S512) (hφ1 : FKind.Formats .f32)
    (ha1 : (0x00000000#32 : BitVec 32) = FKind.add.neutral .f32 hφ1) (hs1 : S512.ShapeCasts S512x1)
    (h2 : S512x1.Reduces [0] S1) (hφ2 : FKind.Formats .f32) (ha2 : (0x00000000#32 : BitVec 32) = FKind.add.neutral .f32 hφ2)
    (hs2 : S1.ShapeCasts S1x1) (u : S1x1.Idx) :
    shapeCast S1x1 (multiReduction (F := Ideal) .add [0] S1
        (shapeCast S512x1 (multiReduction (F := Ideal) .add [1] S512 w 0x00000000#32 h1 hφ1 ha1) hs1) 0x00000000#32 h2 hφ2 ha2) hs2 u
      = ∑ p : Fin 512, ∑ q : Fin 512, w (ix2 p q) := by
  obtain ⟨a, b, rfl⟩ : ∃ a b : Fin 1, u = ix2 a b := ⟨u 0, u 1, eq_ix2 u⟩
  refine (shapeCast_a_a1_apply _ hs2 a b).trans ?_
  refine (multiReduction_add_first_a1 _ _ h2 hφ2 ha2 a).trans (Finset.sum_congr rfl fun p _ => ?_)
  exact (shapeCast_a_a1_apply _ hs1 p a).trans (multiReduction_add_last_ab w _ h1 hφ1 ha1 p)

/-- The tile's partial loss from the distance in x, the two blocks of y, and the squared norms of y's first block and
    the squares of y's second block. -/
theorem pay6_apply (X : Fin 4096 → Fin 1024 → EReal) (Y : Fin 4096 → Fin 512 → EReal) (i j : Fin 8)
    (v30 : FVec Ideal S512x512 .f32) (v31 v32 : Vec Ideal S512x512 .f32)
    (h30 : ∀ p q, v30 (ix2 p q) = Spec.dist X (row i p) (row j q))
    (h31 : ∀ p k, v31 (ix2 p k) = Y (row i p) k) (h32 : ∀ q k, v32 (ix2 q k) = Y (row j q) k) (u : S1x1.Idx) :
    Gen.k0_pay6 (F := Ideal) (BitVec.ofNat 32 i.val) (BitVec.ofNat 32 j.val) v30 v31 v32 (Gen.k0_pay4 v31) (Gen.k0_pay5 v32) u
      = ∑ p : Fin 512, ∑ q : Fin 512, Spec.term X Y (row i p) (row j q) := by
  unfold Gen.k0_pay6
  refine (total_apply _ _ _ _ _ _ _ _ _ u).trans (Finset.sum_congr rfl fun p _ => Finset.sum_congr rfl fun q _ => ?_)
  unfold Spec.term
  refine congr (congrArg HMul.hMul (congr (congrArg HMul.hMul (congr (congrArg HMul.hMul ?_) ?_)) ?_)) ?_
  · exact offd_apply i j _ _ _ p q
  · exact (near_apply v30 _ (ix2 p q)).trans (by rw [h30])
  · exact (heat_apply v30 (ix2 p q)).trans (by rw [h30])
  · refine (clamp_apply _ (ix2 p q)).trans ?_
    rw [dist_eq]
    refine congrArg distOfGram ?_
    refine (gram_apply _ _ _ _ _ _ p q).trans ?_
    refine congr (congrArg HSub.hSub (congr (congrArg HAdd.hAdd ?_) ?_)) (congrArg (Spec.two * ·) ?_)
    · unfold Gen.k0_pay4
      exact (sqcol_apply v31 _ _ _ _ p 0).trans (Finset.sum_congr rfl fun k _ => by rw [h31])
    · unfold Gen.k0_pay5
      exact (sqcol_apply v32 _ _ _ _ q 0).trans (Finset.sum_congr rfl fun k _ => by rw [h32])
    · refine (matmulY_apply _ _ p q).trans (Finset.sum_congr rfl fun k _ => ?_)
      refine congr (congrArg HMul.hMul ?_) ?_
      · exact h31 p k
      · exact (transpose_ix2_apply _ _ k q).trans (h32 q k)

/-! ## The tile's partial loss and the accumulator's two steps -/

/-- The tile's partial loss at grid point (i, j), from the four loaded blocks: the sum over the tile of the pairs'
    contributions to the loss. -/
theorem tile_value (X : Fin 4096 → Fin 1024 → EReal) (Y : Fin 4096 → Fin 512 → EReal) (i j : Fin 8)
    (v5 v6 : Vec Ideal S512x1024 .f32) (v31 v32 : Vec Ideal S512x512 .f32)
    (h5 : ∀ p k, v5 (ix2 p k) = X (row i p) k) (h6 : ∀ q k, v6 (ix2 q k) = X (row j q) k)
    (h31 : ∀ p k, v31 (ix2 p k) = Y (row i p) k) (h32 : ∀ q k, v32 (ix2 q k) = Y (row j q) k) (u : S1x1.Idx) :
    Gen.k0_pay6 (F := Ideal) (BitVec.ofNat 32 i.val) (BitVec.ofNat 32 j.val) (Gen.k0_pay3 v5 v6) v31 v32
        (Gen.k0_pay4 v31) (Gen.k0_pay5 v32) u
      = ∑ p : Fin 512, ∑ q : Fin 512, Spec.term X Y (row i p) (row j q) :=
  pay6_apply X Y i j (Gen.k0_pay3 v5 v6) v31 v32 (pay3_apply X i j v5 v6 h5 h6) h31 h32 u

/-- The accumulation step: the stored sum is the loaded accumulator plus the tile's partial loss (recasting a one-entry
    matrix as a one-entry matrix changes nothing). -/
theorem acc_step (v83 : FVec Ideal S1x1 .f32) (v84 : Vec Ideal S1x1 .f32) (u : S1x1.Idx) :
    Gen.k0_pay1 (F := Ideal) v83 v84 u = v84 u + v83 u := by
  unfold Gen.k0_pay1
  show shapeCast S1x1 v84 _ u + v83 u = _
  rw [shapeCast_self]

/-- The accumulator's first value is 0. -/
theorem acc_zero (u : S1x1.Idx) : Gen.k0_pay2 (F := Ideal) u = 0 :=
  Ideal.ofBits_zero_f32

end Cert.TileValue

end
-- ==== Proof.SumTiles.lean ====
/-
  Two facts about finite sums in a commutative additive monoid.

  The 4096 × 4096 square is tiled by the 64 squares of side 512 of an 8 × 8 grid taken in row-major order,
  so a sum over the square is the sum over the tiles of the sums over each tile.  An accumulator that starts
  at zero plus the first term and adds the next term at every step holds, after step 63, the sum of the
  first 64 terms.
-/
import Mathlib.Algebra.BigOperators.Fin
import Mathlib.Logic.Equiv.Fin.Basic

namespace Cert.SumTiles

open Finset

/-- A sum over 4096 consecutive positions is the sum over 8 blocks of the sums over each block's 512
    positions. -/
theorem sum_blocks {M : Type*} [AddCommMonoid M] (g : Fin 4096 → M) :
    ∑ r : Fin 4096, g r = ∑ a : Fin 8, ∑ p : Fin 512, g ⟨512 * a.val + p.val, by omega⟩ := by
  rw [← Equiv.sum_comp (finProdFinEquiv (m := 8) (n := 512)) g, Fintype.sum_prod_type]
  refine Finset.sum_congr rfl fun a _ => Finset.sum_congr rfl fun p _ => ?_
  exact congrArg g (Fin.ext (Nat.add_comm _ _))

/-- A sum over the 64 tile numbers is the sum over the 8 grid rows of the sums over the 8 grid columns. -/
theorem sum_grid {M : Type*} [AddCommMonoid M] (g : Fin 64 → M) :
    ∑ t : Fin 64, g t = ∑ a : Fin 8, ∑ b : Fin 8, g ⟨8 * a.val + b.val, by omega⟩ := by
  rw [← Equiv.sum_comp (finProdFinEquiv (m := 8) (n := 8)) g, Fintype.sum_prod_type]
  refine Finset.sum_congr rfl fun a _ => Finset.sum_congr rfl fun b _ => ?_
  exact congrArg g (Fin.ext (Nat.add_comm _ _))

/-- The square summed block by block in both coordinates. -/
theorem sum_square {M : Type*} [AddCommMonoid M] (f : Fin 4096 → Fin 4096 → M) :
    ∑ r : Fin 4096, ∑ c : Fin 4096, f r c
      = ∑ a : Fin 8, ∑ b : Fin 8, ∑ p : Fin 512, ∑ q : Fin 512,
          f ⟨512 * a.val + p.val, by omega⟩ ⟨512 * b.val + q.val, by omega⟩ :=
  calc ∑ r : Fin 4096, ∑ c : Fin 4096, f r c
      = ∑ a : Fin 8, ∑ p : Fin 512, ∑ c : Fin 4096, f ⟨512 * a.val + p.val, by omega⟩ c :=
        sum_blocks (fun r : Fin 4096 => ∑ c : Fin 4096, f r c)
    _ = ∑ a : Fin 8, ∑ p : Fin 512, ∑ b : Fin 8, ∑ q : Fin 512,
          f ⟨512 * a.val + p.val, by omega⟩ ⟨512 * b.val + q.val, by omega⟩ :=
        Finset.sum_congr rfl fun (a : Fin 8) _ => Finset.sum_congr rfl fun (p : Fin 512) _ =>
          sum_blocks (fun c : Fin 4096 => f ⟨512 * a.val + p.val, by omega⟩ c)
    _ = ∑ a : Fin 8, ∑ b : Fin 8, ∑ p : Fin 512, ∑ q : Fin 512,
          f ⟨512 * a.val + p.val, by omega⟩ ⟨512 * b.val + q.val, by omega⟩ :=
        Finset.sum_congr rfl fun (a : Fin 8) _ => Finset.sum_comm

/-- The 64 tiles, in row-major order of the 8 × 8 grid, tile the square. -/
theorem sum_tiles {M : Type*} [AddCommMonoid M] (f : Fin 4096 → Fin 4096 → M) :
    ∑ t : Fin 64, ∑ p : Fin 512, ∑ q : Fin 512,
        f ⟨512 * (t.val / 8) + p.val, by omega⟩ ⟨512 * (t.val % 8) + q.val, by omega⟩
      = ∑ r : Fin 4096, ∑ c : Fin 4096, f r c := by
  refine Eq.trans ?_ (sum_square f).symm
  refine (sum_grid (fun t : Fin 64 => ∑ p : Fin 512, ∑ q : Fin 512,
    f ⟨512 * (t.val / 8) + p.val, by omega⟩ ⟨512 * (t.val % 8) + q.val, by omega⟩)).trans ?_
  refine Finset.sum_congr rfl fun (a : Fin 8) _ => Finset.sum_congr rfl fun (b : Fin 8) _ =>
    Finset.sum_congr rfl fun (p : Fin 512) _ => Finset.sum_congr rfl fun (q : Fin 512) _ => ?_
  have ha : a.val < 8 := a.isLt
  have hb : b.val < 8 := b.isLt
  exact congrArg₂ f
    (Fin.ext (show 512 * ((8 * a.val + b.val) / 8) + p.val = 512 * a.val + p.val by omega))
    (Fin.ext (show 512 * ((8 * a.val + b.val) % 8) + q.val = 512 * b.val + q.val by omega))

/-- The accumulator after step n holds the sum of the terms 0, …, n. -/
theorem acc_range {M : Type*} [AddCommMonoid M] (g a : ℕ → M) (h0 : a 0 = 0 + g 0)
    (hs : ∀ n, a (n + 1) = a n + g (n + 1)) (n : ℕ) : a n = ∑ i ∈ Finset.range (n + 1), g i := by
  induction n with
  | zero => rw [h0, zero_add, Finset.sum_range_one]
  | succ n ih => rw [hs, ih, Finset.sum_range_succ g (n + 1)]

/-- After step 63 the accumulator holds the sum of the first 64 terms. -/
theorem acc_sum {M : Type*} [AddCommMonoid M] (g a : ℕ → M) (h0 : a 0 = 0 + g 0)
    (hs : ∀ n, a (n + 1) = a n + g (n + 1)) : a 63 = ∑ t : Fin 64, g t.val := by
  rw [Fin.sum_univ_eq_sum_range g 64]
  exact acc_range g a h0 hs 63

end Cert.SumTiles
-- ==== Proof.KIValue.lean ====
import proofs.«156422_j38439957299681_1_alg».proof.Proof.Gen.KernelIdeal.Launch
import proofs.«156422_j38439957299681_1_alg».proof.Proof.Gen.KernelIdeal.Skeleton
import proofs.«156422_j38439957299681_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«156422_j38439957299681_1_alg».proof.Proof.KIRun
import proofs.«156422_j38439957299681_1_alg».proof.Proof.TileValue
import proofs.«156422_j38439957299681_1_alg».proof.Proof.SumTiles
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The accumulated loss, at the exact values

At the extended reals the accumulator after the last grid point is the sum of the 64 tiles' partial losses, each a
double sum of the pair terms over the tile's rows and columns; the tiles partition the 4096 × 4096 pairs, so the sum
is the loss. -/

variable (m : (ℓ : Loc nD τ sig) → Buf (Elt Ideal) ℓ)

/-- x and y as matrices of rows. -/
def Xm (c : Dev nD) : Fin 4096 → Fin 1024 → EReal := fun r k => m ((c : Thread nD τ).loc main_arg0) (ix2 r k)
def Ym (c : Dev nD) : Fin 4096 → Fin 512 → EReal := fun r k => m ((c : Thread nD τ).loc main_arg1) (ix2 r k)

/-- Grid point t is tile (t / 8, t % 8); the row windows follow the first coordinate, the column windows the second;
    the accumulator's window stays at its one block. -/
theorem grid_facts : ∀ t : Fin cfg0.N,
    (grid0.coords t 0).val = t.val / 8 ∧ (grid0.coords t 1).val = t.val % 8
    ∧ win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0
    ∧ win0_4.index t (0 : Fin 2) = 0 ∧ win0_4.index t (1 : Fin 2) = 0 :=
  (by decide +kernel : ∀ t : Fin grid0.N, _)

/-- The tile's row and column block numbers. -/
def ti (t : Fin cfg0.N) : Fin 8 := ⟨t.val / 8, by have := lt_of_lt_of_eq t.isLt (show cfg0.N = 64 from N_0); omega⟩
def tj (t : Fin cfg0.N) : Fin 8 := ⟨t.val % 8, by omega⟩

/-- The blocks the point reads are the tile's rows of x and y. -/
theorem iblk0_at (c : Dev nD) (t : Fin cfg0.N) (p : Fin 512) (k : Fin 1024) :
    iblk m c 0 t (ix2 p k) = Xm m c (Cert.TileValue.row (ti t) p) k := by
  obtain ⟨-, -, e0, e1, -⟩ := grid_facts t
  show V m c main_arg0 (((cfg0.win 0).blk t).view.emb (ix2 p k)) = V m c main_arg0 (ix2 (Cert.TileValue.row (ti t) p) k)
  refine congrArg (V m c main_arg0) ?_
  funext a; apply Fin.ext
  match a with
  | ⟨0, _⟩ => show win0_0.index t (0 : Fin 2) * 512 + 1 * p.val = 512 * (t.val / 8) + p.val; omega
  | ⟨1, _⟩ => show win0_0.index t (1 : Fin 2) * 1024 + 1 * k.val = k.val; omega
theorem iblk1_at (c : Dev nD) (t : Fin cfg0.N) (p : Fin 512) (k : Fin 1024) :
    iblk m c 1 t (ix2 p k) = Xm m c (Cert.TileValue.row (tj t) p) k := by
  obtain ⟨-, -, -, -, e0, e1, -⟩ := grid_facts t
  show V m c main_arg0 (((cfg0.win 1).blk t).view.emb (ix2 p k)) = V m c main_arg0 (ix2 (Cert.TileValue.row (tj t) p) k)
  refine congrArg (V m c main_arg0) ?_
  funext a; apply Fin.ext
  match a with
  | ⟨0, _⟩ => show win0_1.index t (0 : Fin 2) * 512 + 1 * p.val = 512 * (t.val % 8) + p.val; omega
  | ⟨1, _⟩ => show win0_1.index t (1 : Fin 2) * 1024 + 1 * k.val = k.val; omega
theorem iblk2_at (c : Dev nD) (t : Fin cfg0.N) (p : Fin 512) (k : Fin 512) :
    iblk m c 2 t (ix2 p k) = Ym m c (Cert.TileValue.row (ti t) p) k := by
  obtain ⟨-, -, -, -, -, -, e0, e1, -⟩ := grid_facts t
  show V m c main_arg1 (((cfg0.win 2).blk t).view.emb (ix2 p k)) = V m c main_arg1 (ix2 (Cert.TileValue.row (ti t) p) k)
  refine congrArg (V m c main_arg1) ?_
  funext a; apply Fin.ext
  match a with
  | ⟨0, _⟩ => show win0_2.index t (0 : Fin 2) * 512 + 1 * p.val = 512 * (t.val / 8) + p.val; omega
  | ⟨1, _⟩ => show win0_2.index t (1 : Fin 2) * 512 + 1 * k.val = k.val; omega
theorem iblk3_at (c : Dev nD) (t : Fin cfg0.N) (p : Fin 512) (k : Fin 512) :
    iblk m c 3 t (ix2 p k) = Ym m c (Cert.TileValue.row (tj t) p) k := by
  obtain ⟨-, -, -, -, -, -, -, -, e0, e1, -⟩ := grid_facts t
  show V m c main_arg1 (((cfg0.win 3).blk t).view.emb (ix2 p k)) = V m c main_arg1 (ix2 (Cert.TileValue.row (tj t) p) k)
  refine congrArg (V m c main_arg1) ?_
  funext a; apply Fin.ext
  match a with
  | ⟨0, _⟩ => show win0_3.index t (0 : Fin 2) * 512 + 1 * p.val = 512 * (t.val % 8) + p.val; omega
  | ⟨1, _⟩ => show win0_3.index t (1 : Fin 2) * 512 + 1 * k.val = k.val; omega

/-- The tile's partial loss is the double sum of the pair terms over its rows and columns. -/
theorem tileAt_eq (c : Dev nD) (t : Fin cfg0.N) (u : S1x1.Idx) :
    tileAt m c t u = ∑ p : Fin 512, ∑ q : Fin 512, Cert.Spec.term (Xm m c) (Ym m c) (Cert.TileValue.row (ti t) p) (Cert.TileValue.row (tj t) q) := by
  obtain ⟨g0, g1, -⟩ := grid_facts t
  have h := Cert.TileValue.tile_value (Xm m c) (Ym m c) (ti t) (tj t) (iblk m c 0 t) (iblk m c 1 t) (iblk m c 2 t) (iblk m c 3 t)
    (iblk0_at m c t) (iblk1_at m c t) (iblk2_at m c t) (iblk3_at m c t) u
  rw [← h]
  unfold tileAt tileOf
  rw [g0, g1]
  rfl

/-- The terms of the running sum, by position. -/
def termAt (c : Dev nD) (u : S1x1.Idx) (n : ℕ) : EReal := if h : n < cfg0.N then tileAt m c ⟨n, h⟩ u else 0

/-- After position n the accumulator holds the sum of the first n + 1 tiles' partial losses. -/
theorem accAt_sum (c : Dev nD) (u : S1x1.Idx) : ∀ (n : ℕ) (hn : n < cfg0.N), accAt m c n hn u = ∑ t ∈ Finset.range (n + 1), termAt m c u t
  | 0, hn => by
    rw [Finset.sum_range_one]
    unfold accAt termAt
    rw [Cert.TileValue.acc_step, Cert.TileValue.acc_zero, zero_add, dif_pos hn]
  | n + 1, hn => by
    rw [Finset.sum_range_succ, ← accAt_sum c u n (Nat.lt_of_succ_lt hn)]
    conv_lhs => unfold accAt
    rw [Cert.TileValue.acc_step]
    unfold termAt
    rw [dif_pos hn]

/-- After the last grid point the accumulator holds the loss. -/
theorem acc_final (c : Dev nD) (u : S1x1.Idx) (h63 : 63 < cfg0.N) : accAt m c 63 h63 u = Cert.Spec.loss (Xm m c) (Ym m c) := by
  rw [accAt_sum m c u 63 h63]
  have e : ∑ t ∈ Finset.range (63 + 1), termAt m c u t
      = ∑ t : Fin 64, ∑ p : Fin 512, ∑ q : Fin 512, Cert.Spec.term (Xm m c) (Ym m c) ⟨512 * (t.val / 8) + p.val, by omega⟩ ⟨512 * (t.val % 8) + q.val, by omega⟩ := by
    rw [← Fin.sum_univ_eq_sum_range (fun t => termAt m c u t) 64]
    refine Finset.sum_congr rfl fun t _ => ?_
    have ht : t.val < cfg0.N := lt_of_lt_of_eq t.isLt (show 64 = cfg0.N from N_0.symm)
    unfold termAt
    rw [dif_pos ht, tileAt_eq]
    rfl
  rw [e, Cert.SumTiles.sum_tiles (fun r c' => Cert.Spec.term (Xm m c) (Ym m c) r c')]
  rfl

/-- The accumulator's array after the run holds the loss. -/
theorem arr_final (c : Dev nD) : (dats m 0 c).arrAt 4 cfg0.N = fun _ => Cert.Spec.loss (Xm m c) (Ym m c) := by
  refine (dats m 0 c).arrAt_eq_of_cover 4 (fun _ => Cert.Spec.loss (Xm m c) (Ym m c)) (fun t hf => ?_) (fun i => ?_)
  · have ht : t.val = 63 := by
      have hN : t.val < 64 := lt_of_lt_of_eq t.isLt (show cfg0.N = 64 from N_0)
      have := (flush0_4 t).mp hf; omega
    show (cfg0.win 4).cut (grid0.coords t) ((dats m 0 c).after 4 t) = _
    rw [after4]
    obtain ⟨n, hn⟩ := t
    dsimp only at ht; subst ht
    funext j
    exact acc_final m c _ hn
  · have h63 : 63 < cfg0.N := lt_of_lt_of_eq (by omega) (show 64 = cfg0.N from N_0.symm)
    refine ⟨⟨63, h63⟩, (flush0_4 _).mpr rfl, ?_⟩
    obtain ⟨-, -, -, -, -, -, -, -, -, -, e0, e1⟩ := grid_facts ⟨63, h63⟩
    show i ∈ ((View.whole main_v0).slice (win0_4.rect ⟨63, h63⟩)).set
    rw [View.set_slice_whole, Rect.mem_set_unit]
    intro a
    match a with
    | ⟨0, _⟩ =>
      show win0_4.index ⟨63, h63⟩ (0 : Fin 2) * 1 ≤ (i 0).val ∧ (i 0).val < win0_4.index ⟨63, h63⟩ (0 : Fin 2) * 1 + 1
      have hi : (i 0).val < 1 := (i 0).isLt
      omega
    | ⟨1, _⟩ =>
      show win0_4.index ⟨63, h63⟩ (1 : Fin 2) * 1 ≤ (i 1).val ∧ (i 1).val < win0_4.index ⟨63, h63⟩ (1 : Fin 2) * 1 + 1
      have hi : (i 1).val < 1 := (i 1).isLt
      omega

/-- The scalar result is the loss. -/
theorem res_eq (c : Dev nD) : resOf m c = fun _ => Cert.Spec.loss (Xm m c) (Ym m c) := by
  have hW0 : Wexit m c (Proc.devRef .tc main_v0) = (dats m 0 c).arrAt 4 cfg0.N := by
    unfold Wexit; exact Function.update_self _ _ _
  unfold resOf
  show (StableHlo.reshape main_v0 main_v1 rfl shapeCasts_S1x1_S_ : HloOp τ sig (Elt Ideal)).result (Wexit m c) (Proc.devRef .tc main_v1) = _
  rw [StableHlo.reshape_result]
  funext i
  show shapeCast S_ (Wexit m c (Proc.devRef .tc main_v0)) shapeCasts_S1x1_S_ i = _
  rw [hW0, arr_final]
  rfl

end Cert.KernelIdeal.Frm

end
-- ==== Proof.RefTerm.lean ====
/-
  The reference program read one element at a time.

  Each stage of the reference is read at the pair (r, c) of row indices and identified with the
  corresponding quantity of the specification: the row sums of squares with sq, the product with the
  transposed argument with dot, their Gram combination clamped at 0 with d2, the square root of the floored
  value with dist, the two masks with offd and near, and the summand with term.
-/
import proofs.«156422_j38439957299681_1_alg».proof.Proof.Gen.ReferenceIdeal.Read
import proofs.«156422_j38439957299681_1_alg».proof.Proof.Spec
import Idealize.ShloMosaic.Lib.ValueIdx
import Idealize.ShloMosaic.Lib.IdealHost
import Idealize.ShloMosaic.Lib.Affine
import Idealize.ShloMosaic.Lib.Pipeline.Value
import Idealize.ShloMosaic.PureOps.Ideal.Laws

noncomputable section

namespace Cert.RefValue

open Cert.ReferenceIdeal Cert.ReferenceIdeal.Read Idealize.ShloMosaic Idealize.ShloMosaic.ValueIdx

/-! ## The first argument (1024 columns) -/

/-- The row sum of squares of the first argument at row r is sq. -/
theorem v1_at (x0 : (⟨S4096x1024, .f32⟩ : BufTy).Contents (Elt Ideal)) (r : Fin 4096) :
    val_main_v1 (F := Ideal) x0 (ix1 r) = Cert.Spec.sq (fun r k => x0 (ix2 r k)) r := by
  rw [val_main_v1_apply, val_main_cst_apply]
  simp only [val_main_v0_apply, Ideal.mulf_def, Ideal.ofBits_def, Ideal.ofBits_zero_f32, zero_add]
  unfold Cert.Spec.sq
  refine Finset.sum_congr rfl fun k _ => ?_
  have e : idx_main_v1 (ix1 r) k = ix2 r k :=
    funext fun a => Fin.ext (by match a with | ⟨0, _⟩ => rfl | ⟨1, _⟩ => rfl)
  rw [e]

/-- The sum of the two broadcast row sums at (r, c) is sq r + sq c. -/
theorem v6_at (x0 : (⟨S4096x1024, .f32⟩ : BufTy).Contents (Elt Ideal)) (r c : Fin 4096) :
    val_main_v6 (F := Ideal) x0 (ix2 r c)
      = Cert.Spec.sq (fun r k => x0 (ix2 r k)) r + Cert.Spec.sq (fun r k => x0 (ix2 r k)) c := by
  rw [val_main_v6_apply, val_main_v4_apply, val_main_v5_apply, val_main_v2_apply, val_main_v3_apply]
  have e1 : idx_main_v2 (idx_main_v4 (ix2 r c)) = ix1 r :=
    funext fun a => Fin.ext (by match a with | ⟨0, _⟩ => rfl)
  have e2 : idx_main_v3 (idx_main_v5 (ix2 r c)) = ix1 c :=
    funext fun a => Fin.ext (by match a with | ⟨0, _⟩ => rfl)
  rw [e1, e2, v1_at, v1_at]
  rfl

/-- The product of the first argument with its transpose at (r, c) is dot r c. -/
theorem v8_at (x0 : (⟨S4096x1024, .f32⟩ : BufTy).Contents (Elt Ideal)) (r c : Fin 4096) :
    val_main_v8 (F := Ideal) x0 (ix2 r c) = Cert.Spec.dot (fun r k => x0 (ix2 r k)) r c := by
  rw [val_main_v8_apply]
  unfold Cert.Spec.dot
  refine Finset.sum_congr rfl fun k _ => ?_
  rw [val_main_v7_apply]
  have el : lidx_main_v8 (ix2 r c) k = ix2 r k :=
    funext fun a => Fin.ext (by match a with | ⟨0, _⟩ => rfl | ⟨1, _⟩ => rfl)
  have er : idx_main_v7 (ridx_main_v8 (ix2 r c) k) = ix2 c k :=
    funext fun a => Fin.ext (by match a with | ⟨0, _⟩ => rfl | ⟨1, _⟩ => rfl)
  rw [el, er]

/-- The Gram combination clamped below at 0, at (r, c), is d2 r c. -/
theorem v13_at (x0 : (⟨S4096x1024, .f32⟩ : BufTy).Contents (Elt Ideal)) (r c : Fin 4096) :
    val_main_v13 (F := Ideal) x0 (ix2 r c) = Cert.Spec.d2 (fun r k => x0 (ix2 r k)) r c := by
  rw [val_main_v13_apply, val_main_v11_apply, val_main_v10_apply, val_main_v9_apply, val_main_cst_0_apply,
    val_main_v12_apply, val_main_cst_1_apply, v6_at, v8_at]
  simp only [Ideal.maximumf_def, Ideal.subf_def, Ideal.mulf_def, Ideal.ofBits_def, Ideal.ofBits_zero_f32]
  rfl

/-- The square root of the squared distance floored at ε, at (r, c), is dist r c. -/
theorem v17_at (x0 : (⟨S4096x1024, .f32⟩ : BufTy).Contents (Elt Ideal)) (r c : Fin 4096) :
    val_main_v17 (F := Ideal) x0 (ix2 r c) = Cert.Spec.dist (fun r k => x0 (ix2 r k)) r c := by
  rw [val_main_v17_apply, val_main_v16_apply, val_main_v15_apply, val_main_v14_apply, val_main_cst_2_apply,
    val_main_call0_v1_apply, val_main_call0_v0_apply, val_main_cst_3_apply, v13_at]
  simp only [Ideal.hostUnary_sqrt_def, Ideal.ofBits_def]
  rfl

/-! ## The second argument (512 columns) -/

/-- The row sum of squares of the second argument at row r is sq. -/
theorem v19_at (x1 : (⟨S4096x512, .f32⟩ : BufTy).Contents (Elt Ideal)) (r : Fin 4096) :
    val_main_v19 (F := Ideal) x1 (ix1 r) = Cert.Spec.sq (fun r k => x1 (ix2 r k)) r := by
  rw [val_main_v19_apply, val_main_cst_4_apply]
  simp only [val_main_v18_apply, Ideal.mulf_def, Ideal.ofBits_def, Ideal.ofBits_zero_f32, zero_add]
  unfold Cert.Spec.sq
  refine Finset.sum_congr rfl fun k _ => ?_
  have e : idx_main_v19 (ix1 r) k = ix2 r k :=
    funext fun a => Fin.ext (by match a with | ⟨0, _⟩ => rfl | ⟨1, _⟩ => rfl)
  rw [e]

/-- The sum of the two broadcast row sums at (r, c) is sq r + sq c. -/
theorem v24_at (x1 : (⟨S4096x512, .f32⟩ : BufTy).Contents (Elt Ideal)) (r c : Fin 4096) :
    val_main_v24 (F := Ideal) x1 (ix2 r c)
      = Cert.Spec.sq (fun r k => x1 (ix2 r k)) r + Cert.Spec.sq (fun r k => x1 (ix2 r k)) c := by
  rw [val_main_v24_apply, val_main_v22_apply, val_main_v23_apply, val_main_v20_apply, val_main_v21_apply]
  have e1 : idx_main_v20 (idx_main_v22 (ix2 r c)) = ix1 r :=
    funext fun a => Fin.ext (by match a with | ⟨0, _⟩ => rfl)
  have e2 : idx_main_v21 (idx_main_v23 (ix2 r c)) = ix1 c :=
    funext fun a => Fin.ext (by match a with | ⟨0, _⟩ => rfl)
  rw [e1, e2, v19_at, v19_at]
  rfl

/-- The product of the second argument with its transpose at (r, c) is dot r c. -/
theorem v26_at (x1 : (⟨S4096x512, .f32⟩ : BufTy).Contents (Elt Ideal)) (r c : Fin 4096) :
    val_main_v26 (F := Ideal) x1 (ix2 r c) = Cert.Spec.dot (fun r k => x1 (ix2 r k)) r c := by
  rw [val_main_v26_apply]
  unfold Cert.Spec.dot
  refine Finset.sum_congr rfl fun k _ => ?_
  rw [val_main_v25_apply]
  have el : lidx_main_v26 (ix2 r c) k = ix2 r k :=
    funext fun a => Fin.ext (by match a with | ⟨0, _⟩ => rfl | ⟨1, _⟩ => rfl)
  have er : idx_main_v25 (ridx_main_v26 (ix2 r c) k) = ix2 c k :=
    funext fun a => Fin.ext (by match a with | ⟨0, _⟩ => rfl | ⟨1, _⟩ => rfl)
  rw [el, er]

/-- The Gram combination clamped below at 0, at (r, c), is d2 r c. -/
theorem v31_at (x1 : (⟨S4096x512, .f32⟩ : BufTy).Contents (Elt Ideal)) (r c : Fin 4096) :
    val_main_v31 (F := Ideal) x1 (ix2 r c) = Cert.Spec.d2 (fun r k => x1 (ix2 r k)) r c := by
  rw [val_main_v31_apply, val_main_v29_apply, val_main_v28_apply, val_main_v27_apply, val_main_cst_5_apply,
    val_main_v30_apply, val_main_cst_6_apply, v24_at, v26_at]
  simp only [Ideal.maximumf_def, Ideal.subf_def, Ideal.mulf_def, Ideal.ofBits_def, Ideal.ofBits_zero_f32]
  rfl

/-- The square root of the squared distance floored at ε, at (r, c), is dist r c. -/
theorem v35_at (x1 : (⟨S4096x512, .f32⟩ : BufTy).Contents (Elt Ideal)) (r c : Fin 4096) :
    val_main_v35 (F := Ideal) x1 (ix2 r c) = Cert.Spec.dist (fun r k => x1 (ix2 r k)) r c := by
  rw [val_main_v35_apply, val_main_v34_apply, val_main_v33_apply, val_main_v32_apply, val_main_cst_7_apply,
    val_main_call1_v1_apply, val_main_call1_v0_apply, val_main_cst_8_apply, v31_at]
  simp only [Ideal.hostUnary_sqrt_def, Ideal.ofBits_def]
  rfl

/-! ## The two masks and one pair's contribution -/

/-- Two row indices below 4096 are equal exactly when their 32-bit words (the first with zero added) are. -/
theorem word_eq_iff (r c : Fin 4096) :
    (IntOp.addi (BitVec.ofNat 32 r.val) 0#32 = BitVec.ofNat 32 c.val) ↔ r = c := by
  have hr := r.isLt
  have hc := c.isLt
  constructor
  · intro h
    have h2 := congrArg BitVec.toNat h
    simp only [IntOp.addi, BitVec.add_zero, BitVec.toNat_ofNat] at h2
    exact Fin.ext (by omega)
  · rintro rfl
    simp only [IntOp.addi, BitVec.add_zero]

/-- A one-bit word read as an unsigned number is 1 where the bit is set and 0 where it is not. -/
theorem uitofp_bit (b : BitVec 1) :
    FloatOps.uitofp (F := Ideal) .f32 b = if b = 1#1 then 1 else 0 := by
  show (((b.toNat : ℝ)) : EReal) = _
  rcases BitVec.eq_zero_or_eq_one b with rfl | rfl <;> simp

/-- One minus the indicator of the diagonal, at (r, c), is offd r c. -/
theorem v43_at (r c : Fin 4096) : val_main_v43 (F := Ideal) (ix2 r c) = Cert.Spec.offd r c := by
  rw [val_main_v43_apply, val_main_v42_apply, val_main_cst_9_apply, val_main_v41_apply, val_main_v40_apply,
    val_main_v39_apply, val_main_v36_apply, val_main_v38_apply, val_main_c_apply, val_main_v37_apply, uitofp_bit]
  simp only [Ideal.subf_def, Ideal.ofBits_def, Ideal.ofBits_one_f32]
  show (1 : EReal) - (if IntOp.cmpi .eq (IntOp.addi (BitVec.ofNat 32 r.val) 0#32) (BitVec.ofNat 32 c.val) = 1#1
    then 1 else 0) = Cert.Spec.offd r c
  have hw : IntOp.cmpi .eq (IntOp.addi (BitVec.ofNat 32 r.val) 0#32) (BitVec.ofNat 32 c.val) = 1#1 ↔ r = c :=
    IntOp.cmpi_eq.trans (word_eq_iff r c)
  unfold Cert.Spec.offd
  by_cases h : r = c
  · rw [if_pos (hw.mpr h), if_pos h, ← EReal.coe_one, ← EReal.coe_sub, sub_self, EReal.coe_zero]
  · rw [if_neg (mt hw.mp h), if_neg h]
    exact sub_zero 1

/-- The indicator that the first distance is at most the threshold, at (r, c), is near (dist r c). -/
theorem v46_at (x0 : (⟨S4096x1024, .f32⟩ : BufTy).Contents (Elt Ideal)) (r c : Fin 4096) :
    val_main_v46 (F := Ideal) x0 (ix2 r c) = Cert.Spec.near (Cert.Spec.dist (fun r k => x0 (ix2 r k)) r c) := by
  rw [val_main_v46_apply, val_main_v45_apply, val_main_v44_apply, val_main_cst_10_apply, v17_at, uitofp_bit]
  rfl

/-- The summand of the reference at (r, c) is the contribution term r c of the ordered pair. -/
theorem v53_at (x0 : (⟨S4096x1024, .f32⟩ : BufTy).Contents (Elt Ideal))
    (x1 : (⟨S4096x512, .f32⟩ : BufTy).Contents (Elt Ideal)) (r c : Fin 4096) :
    val_main_v53 (F := Ideal) x0 x1 (ix2 r c)
      = Cert.Spec.term (fun r k => x0 (ix2 r k)) (fun r k => x1 (ix2 r k)) r c := by
  rw [val_main_v53_apply, val_main_v52_apply, val_main_v47_apply, val_main_v51_apply, val_main_v50_apply,
    val_main_v48_apply, val_main_v49_apply, val_main_cst_11_apply, v43_at, v46_at, v17_at, v35_at]
  simp only [Ideal.mulf_def, Ideal.hostUnary_exp_def, Ideal.hostDivf_def, Ideal.hostNegf_def, Ideal.negf_def,
    Ideal.ofBits_def]
  rfl

end Cert.RefValue

end
-- ==== Proof.RefValue.lean ====
/-
  The reference program's value is the loss of the specification.

  The reference adds, from the initial value 0, its summand over all index pairs of the 4096 × 4096 array;
  the sum over index pairs is the double sum over the two coordinates, and the summand at (r, c) is the
  contribution term r c of the ordered pair.
-/
import proofs.«156422_j38439957299681_1_alg».proof.Proof.RefTerm

noncomputable section

namespace Cert.RefValue

open Cert.ReferenceIdeal Cert.ReferenceIdeal.Read Idealize.ShloMosaic Idealize.ShloMosaic.ValueIdx

/-- The reference's result, at its one index, is the loss of the two arguments read by rows. -/
theorem ref_value (x0 : (⟨Cert.ReferenceIdeal.S4096x1024, .f32⟩ : BufTy).Contents (Elt Ideal))
    (x1 : (⟨Cert.ReferenceIdeal.S4096x512, .f32⟩ : BufTy).Contents (Elt Ideal)) :
    Cert.ReferenceIdeal.Read.val_main_v54 (F := Ideal) x0 x1
      = fun _ => Cert.Spec.loss (fun r k => x0 (ValueIdx.ix2 r k)) (fun r k => x1 (ValueIdx.ix2 r k)) := by
  funext i
  rw [val_main_v54_apply, val_main_cst_12_apply]
  simp only [Ideal.ofBits_def, Ideal.ofBits_zero_f32, zero_add]
  rw [sum_idx2 (val_main_v53 (F := Ideal) x0 x1)]
  unfold Cert.Spec.loss
  exact Finset.sum_congr rfl fun r _ => Finset.sum_congr rfl fun c _ => v53_at x0 x1 r c

end Cert.RefValue

end
-- ==== Proof.lean ====
/-
  The claim: the kernel (read at the word level and at the exact values) and the reference (at the exact values)
  each run to the end without a fault and leave x and y unchanged; the idealization rewrote nothing; and at the
  exact values both end with the same scalar.

  The mathematics.  For a matrix a of 4096 rows let d(a) r c be the distance of rows r and c through the Gram
  identity |a_r|² + |a_c|² − 2⟨a_r, a_c⟩, clamped at 0 and floored at ε before the square root.  Both programs
  compute the sum over ordered pairs r ≠ c with d(x) r c ≤ 46 of exp(−d(x) r c / 10) · d(y) r c.  The reference
  forms the 4096 × 4096 matrices whole and sums every entry at once.  The kernel walks an 8 × 8 grid of 512 × 512
  tiles: at tile (i, j) it reads row blocks i and j of x and of y (two windows on each array, which therefore share
  its buffer at complementary half shares), forms the tile's partial sum, and adds it to a 1 × 1 accumulator cleared
  at the first tile and written back after the last; one host line then recasts the 1 × 1 result as a scalar.  The
  tiles partition the pairs, and addition of extended reals is commutative and associative, so the 64 partial sums
  add up to the reference's one sum; no finiteness of the inputs is used.

  Each kernel frame is the pipeline's launch at proof data that name the accumulator point by point; the same run
  gives the scalar's value, which the reference's run is then matched against index by index.
-/
import proofs.«156422_j38439957299681_1_alg».proof.Defs
import proofs.«156422_j38439957299681_1_alg».proof.Proof.Gen.Kernel
import proofs.«156422_j38439957299681_1_alg».proof.Proof.Gen.KernelIdeal
import proofs.«156422_j38439957299681_1_alg».proof.Proof.Gen.ReferenceIdeal
import proofs.«156422_j38439957299681_1_alg».proof.Proof.Gen.Pre_finite_inputs
import proofs.«156422_j38439957299681_1_alg».proof.Proof.Gen.ReferenceIdeal.Run
import proofs.«156422_j38439957299681_1_alg».proof.Proof.Gen.ReferenceIdeal.Read
import proofs.«156422_j38439957299681_1_alg».proof.Proof.KBRun
import proofs.«156422_j38439957299681_1_alg».proof.Proof.KIValue
import proofs.«156422_j38439957299681_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves x and y unchanged. -/
theorem frame_k : Cert.frame_Kernel := fun m ρ _ =>
  (θ_run Cert.Kernel.defs _ _).mono (fun _ h c => (h c).2) (Cert.Kernel.Frm.run_main (F := Bits) m ρ)

/-- So does the kernel at the exact values. -/
theorem frame_ki : Cert.frame_KernelIdeal := fun m ρ _ =>
  (θ_run Cert.KernelIdeal.defs _ _).mono (fun _ h c => (h c).2) (Cert.KernelIdeal.Frm.run_main (F := Ideal) m ρ)

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the exact values the kernel's scalar is the loss of its x and y (the accumulated tiles), and the reference's
    is the loss of its own, which agree with the kernel's. -/
theorem algebraic : Cert.algebraic_KernelIdeal_ReferenceIdeal := by
  intro m ρ m' ρ' _ hagree
  refine ⟨fun c => Cert.KernelIdeal.Frm.resOf m c, Cert.KernelIdeal.Frm.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.RefValue.ref_value, (hagree c).1, (hagree c).2]
  exact (Cert.KernelIdeal.Frm.res_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
